-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S16x2 .f32) (main_arg9 : FVec F S2 .f32) (main_v33 : IVec S_ 1) : IVec S_ 1 :=
  let main_v34 : FVec F S16x2 .f32 := Host.absf main_arg8
  let main_cst_12 : FVec F S_ .f32 := constant S_ .f32 0x7F800000#32
  let main_v35 : FVec F S16x2 .f32 := broadcastInDim S16x2 ![] bcast_S_S16x2 main_cst_12
  let main_v36 : IVec S16x2 1 := cmpf .olt main_v34 main_v35
  let main_c_13 : IVec S_ 1 := constantI S_ 1 1#1
  let main_v37 : IVec S_ 1 := (fun x v => Host.reduce IntOp.andi x v reducesTo_S16x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S32x16 .f32) (main_arg6 : FVec F S16 .f32) (main_arg7 : FVec F S32x16 .f32) (main_arg8 : FVec F S16x2 .f32) (main_arg9 : FVec F S2 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32x16 .f32 := Host.absf main_arg5
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S32x16 .f32 := Host.absf main_arg7
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x32 .f32) (main_arg3 : FVec F S32 .f32) (main_arg4 : FVec F S128x32 .f32) (main_arg5 : FVec F S32x16 .f32) (main_arg6 : FVec F S16 .f32) (main_arg7 : FVec F S32x16 .f32) (main_arg8 : FVec F S16x2 .f32) (main_arg9 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S128x32 .f32 := Host.absf main_arg4
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x32 : Shape := ⟨2, ![1, 32]⟩
abbrev S100000x32 : Shape := ⟨2, ![100000, 32]⟩
abbrev S5000x128 : Shape := ⟨2, ![5000, 128]⟩
abbrev S5000x32 : Shape := ⟨2, ![5000, 32]⟩
abbrev S1600000x32 : Shape := ⟨2, ![1600000, 32]⟩
abbrev S1x16 : Shape := ⟨2, ![1, 16]⟩
abbrev S1x2 : Shape := ⟨2, ![1, 2]⟩
abbrev S100000x2 : Shape := ⟨2, ![100000, 2]⟩
abbrev S5000x2 : Shape := ⟨2, ![5000, 2]⟩
abbrev S5000x16 : Shape := ⟨2, ![5000, 16]⟩

abbrev nBuf : Space → Nat
  | .hbm => 63
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S128x32, .f32⟩
  | .hbm, ⟨5, _⟩ => ⟨S32x16, .f32⟩
  | .hbm, ⟨6, _⟩ => ⟨S16, .f32⟩
  | .hbm, ⟨7, _⟩ => ⟨S32x16, .f32⟩
  | .hbm, ⟨8, _⟩ => ⟨S16x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S1x32, .f32⟩
  | .hbm, ⟨43, _⟩ => ⟨S100000x32, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x32, .f32⟩
  | .hbm, ⟨53, _⟩ => ⟨S_, .f32⟩
  | .hbm, ⟨54, _⟩ => ⟨S100000x32, .f32⟩
  | .hbm, ⟨55, _⟩ => ⟨S1600000x1, .i32⟩
  | .hbm, ⟨56, _⟩ => ⟨S100000x32, .f32⟩
  | .hbm, ⟨57, _⟩ => ⟨S100000x1, .f32⟩
  | .hbm, ⟨58, _⟩ => ⟨S100000x32, .f32⟩
  | .hbm, ⟨59, _⟩ => ⟨S100000x32, .f32⟩
  | .hbm, ⟨60, _⟩ => ⟨S1x16, .f32⟩
  | .hbm, ⟨61, _⟩ => ⟨S1x2, .f32⟩
  | .hbm, ⟨62, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x32, .f32⟩
  | .local _ .vmem, ⟨5, _⟩ => ⟨S1x32, .f32⟩
  | .local _ .vmem, ⟨6, _⟩ => ⟨S128x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S32x16, .f32⟩
  | .local _ .vmem, ⟨14, _⟩ => ⟨S1x16, .f32⟩
  | .local _ .vmem, ⟨15, _⟩ => ⟨S32x16, .f32⟩
  | .local _ .vmem, ⟨16, _⟩ => ⟨S16x2, .f32⟩
  | .local _ .vmem, ⟨17, _⟩ => ⟨S1x2, .f32⟩
  | .local _ .vmem, ⟨18, _⟩ => ⟨S5000x2, .f32⟩
  | .local _ .vmem, ⟨19, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S32_S1x32 : S32.ShapeCasts S1x32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S16_S1x16 : S16.ShapeCasts S1x16
  shapeCasts_S2_S1x2 : S2.ShapeCasts S1x2
  shapeCasts_S5000x32_S5000x32 : S5000x32.ShapeCasts S5000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x2_S16x2_0_0 : ∀ a, (![0, 0] : Fin 2 → Nat) a + S16x2.size a ≤ S16x2.size a
  h_S16x2 : 0 < S16x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x32_S5000x32_1_0_0_1_n_n_wf : DotDims.WF S5000x128 S128x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x16_S5000x16_1_0_0_1_n_n_wf : DotDims.WF S5000x32 S32x16 S5000x16 [1] [0] [0] [1] [] []
  dot_S5000x16_S16x2_S5000x2_1_0_0_1_n_n_wf : DotDims.WF S5000x16 S16x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S128x32.size a
  hwx0_4 : ∀ i : grid0.Coords, EltTy.bits .f32 = 32 ∨ (Rect.block (s := S128x32) S128x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S100000x32.size a
  hwx0_5 : ∀ i : grid0.Coords, EltTy.bits .f32 = 32 ∨ (Rect.block (s := S100000x32) S5000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x16.size a ≤ S32x16.size a
  hwx1_4 : ∀ i : grid1.Coords, EltTy.bits .f32 = 32 ∨ (Rect.block (s := S32x16) S32x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x2.size a ≤ S16x2.size a
  hwx1_5 : ∀ i : grid1.Coords, EltTy.bits .f32 = 32 ∨ (Rect.block (s := S16x2) S16x2.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2.size a ≤ S1x2.size a
  hwx1_6 : ∀ i : grid1.Coords, EltTy.bits .f32 = 32 ∨ (Rect.block (s := S1x2) S1x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x2.size a ≤ S100000x2.size a
  hwx1_7 : ∀ i : grid1.Coords, EltTy.bits .f32 = 32 ∨ (Rect.block (s := S100000x2) S5000x2.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S32x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S16x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41) S1x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v42) S5000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S16x2 : Shape := ⟨2, ![16, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x32 : Shape := ⟨2, ![100000, 32]⟩
abbrev S1x32 : Shape := ⟨2, ![1, 32]⟩
abbrev S1600000x32 : Shape := ⟨2, ![1600000, 32]⟩
abbrev S100000x16 : Shape := ⟨2, ![100000, 16]⟩
abbrev S1x16 : Shape := ⟨2, ![1, 16]⟩
abbrev S100000x2 : Shape := ⟨2, ![100000, 2]⟩
abbrev S1x2 : Shape := ⟨2, ![1, 2]⟩

abbrev nBuf : Space → Nat
  | .hbm => 86
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S128x32, .f32⟩
  | .hbm, ⟨5, _⟩ => ⟨S32x16, .f32⟩
  | .hbm, ⟨6, _⟩ => ⟨S16, .f32⟩
  | .hbm, ⟨7, _⟩ => ⟨S32x16, .f32⟩
  | .hbm, ⟨8, _⟩ => ⟨S16x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x32, .f32⟩
  | .hbm, ⟨40, _⟩ => ⟨S1x32, .f32⟩
  | .hbm, ⟨41, _⟩ => ⟨S100000x32, .f32⟩
  | .hbm, ⟨42, _⟩ => ⟨S100000x32, .f32⟩
  | .hbm, ⟨43, _⟩ => ⟨S100000x32, .f32⟩
  | .hbm, ⟨44, _⟩ => ⟨S100000x32, .f32⟩
  | .hbm, ⟨45, _⟩ => ⟨S_, .f32⟩
  | .hbm, ⟨46, _⟩ => ⟨S100000x32, .f32⟩
  | .hbm, ⟨47, _⟩ => ⟨S100000x32, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x32, .f32⟩
  | .hbm, ⟨57, _⟩ => ⟨S_, .f32⟩
  | .hbm, ⟨58, _⟩ => ⟨S100000x32, .f32⟩
  | .hbm, ⟨59, _⟩ => ⟨S1600000x1, .i32⟩
  | .hbm, ⟨60, _⟩ => ⟨S100000x32, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x32, .f32⟩
  | .hbm, ⟨72, _⟩ => ⟨S100000x32, .f32⟩
  | .hbm, ⟨73, _⟩ => ⟨S100000x16, .f32⟩
  | .hbm, ⟨74, _⟩ => ⟨S1x16, .f32⟩
  | .hbm, ⟨75, _⟩ => ⟨S100000x16, .f32⟩
  | .hbm, ⟨76, _⟩ => ⟨S100000x16, .f32⟩
  | .hbm, ⟨77, _⟩ => ⟨S100000x16, .f32⟩
  | .hbm, ⟨78, _⟩ => ⟨S100000x16, .f32⟩
  | .hbm, ⟨79, _⟩ => ⟨S_, .f32⟩
  | .hbm, ⟨80, _⟩ => ⟨S100000x16, .f32⟩
  | .hbm, ⟨81, _⟩ => ⟨S100000x16, .f32⟩
  | .hbm, ⟨82, _⟩ => ⟨S100000x2, .f32⟩
  | .hbm, ⟨83, _⟩ => ⟨S1x2, .f32⟩
  | .hbm, ⟨84, _⟩ => ⟨S100000x2, .f32⟩
  | .hbm, ⟨85, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x32_S100000x32_1_0_0_1_n_n_wf : DotDims.WF S100000x128 S128x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x16_S100000x16_1_0_0_1_n_n_wf : DotDims.WF S100000x32 S32x16 S100000x16 [1] [0] [0] [1] [] []
  dot_S100000x16_S16x2_S100000x2_1_0_0_1_n_n_wf : DotDims.WF S100000x16 S16x2 S100000x2 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf

class Facts : Prop extends Facts₀ where

variable [Facts]
-- ==== Proof.KernelRun.lean ====
/-
  The run of the whole program with its result named: every weakly fair execution terminates, the result array ends at what
  the second region's write-backs leave in it (the last boundary's contents at the result's buffer), and the argument
  arrays end as launched.  The frame theorem states the same run and forgets the result; here the final thread state is
  read at the result's buffer as well.
-/
import proofs.«179205_j70076686401960_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result's buffer read off the last boundary's contents. -/
theorem run_out : θ_run defs (onTc (τ := τ) (main (F := F))) ⟨m, fun _ => 0, ρ⟩ (fun r => ∀ c : Dev nD,
      r.2.mem ((c.tc : Thread nD τ).loc main_v42) = W4 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v42 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Hand

end
-- ==== Proof.Body1.lean ====
/-
  What one grid step of the first layer's kernel computes, entry by entry: from a block of 5000 rows of the neighbourhood
  means and of the node features, the two weight matrices and the bias row, entry (p, q) of the stored block is
  relu( Σ_k mean[p,k]·Wl[k,q] + Σ_k x[p,k]·Wr[k,q] + b[q] ).  The changes of float format in the body are the identity on
  the extended reals, and each matrix product into a zero accumulator is the plain sum over the inner axis.
-/
import proofs.«179205_j70076686401960_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Body1

open Cert.KernelIdeal Cert.KernelIdeal.Gen Idealize.ShloMosaic Idealize.ShloMosaic.TcCoe Idealize.SL.Sem
open Idealize.ShloMosaic.ValueIdx
open Idealize.ShloMosaic.Pipeline (Dat)

/-! ### The matrix product `[5000,128] × [128,32]` into a zero accumulator, read at an entry -/

theorem dotA_lhs0 (i : S5000x32.Idx) (q : dot_S5000x128_S128x32_S5000x32_1_0_0_1_n_n.contr.Idx) : (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
theorem dotA_lhs1 (i : S5000x32.Idx) (q : dot_S5000x128_S128x32_S5000x32_1_0_0_1_n_n.contr.Idx) : (dot_S5000x128_S128x32_S5000x32_1_0_0_1_n_n.lhsIdx i q 1).val = (q ⟨0, by decide⟩).val :=
  dot_S5000x128_S128x32_S5000x32_1_0_0_1_n_n.lhsIdx_val_of_single rfl i q
theorem dotA_rhs0 (i : S5000x32.Idx) (q : dot_S5000x128_S128x32_S5000x32_1_0_0_1_n_n.contr.Idx) : (dot_S5000x128_S128x32_S5000x32_1_0_0_1_n_n.rhsIdx i q 0).val = (q ⟨0, by decide⟩).val :=
  dot_S5000x128_S128x32_S5000x32_1_0_0_1_n_n.rhsIdx_val_of_single rfl i q
theorem dotA_rhs1 (i : S5000x32.Idx) (q : dot_S5000x128_S128x32_S5000x32_1_0_0_1_n_n.contr.Idx) : (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- Entry (p, q) of the product is the sum over the inner axis of row p of the left factor times column q of the right. -/
theorem dotA_apply {φ₁ φ₂ : FTy} (l : FVec Ideal S5000x128 φ₁) (r : FVec Ideal S128x32 φ₂) (p : Fin 5000) (q : Fin 32) :
    matmul dot_S5000x128_S128x32_S5000x32_1_0_0_1_n_n none l r (constant (F := Ideal) S5000x32 .f32 0x00000000#32) (ix2 (n0 := 5000) (n1 := 32) p q)
      = ∑ k : Fin 128, l (ix2 (n0 := 5000) (n1 := 128) p k) * r (ix2 (n0 := 128) (n1 := 32) k q) := by
  simp only [matmul]
  rw [Ideal.matmul_constant_zero_apply, ← Equiv.sum_comp (contrEquiv1 dot_S5000x128_S128x32_S5000x32_1_0_0_1_n_n 128 rfl rfl).symm]
  refine Finset.sum_congr rfl fun k _ => ?_
  have hk := contrEquiv1_symm_val dot_S5000x128_S128x32_S5000x32_1_0_0_1_n_n 128 rfl rfl k
  have el : dot_S5000x128_S128x32_S5000x32_1_0_0_1_n_n.lhsIdx (ix2 (n0 := 5000) (n1 := 32) p q) ((contrEquiv1 dot_S5000x128_S128x32_S5000x32_1_0_0_1_n_n 128 rfl rfl).symm k) = ix2 (n0 := 5000) (n1 := 128) p k := funext fun a => Fin.ext (by
    match a with
    | ⟨0, _⟩ => exact dotA_lhs0 _ _
    | ⟨1, _⟩ => exact (dotA_lhs1 _ _).trans hk)
  have er : dot_S5000x128_S128x32_S5000x32_1_0_0_1_n_n.rhsIdx (ix2 (n0 := 5000) (n1 := 32) p q) ((contrEquiv1 dot_S5000x128_S128x32_S5000x32_1_0_0_1_n_n 128 rfl rfl).symm k) = ix2 (n0 := 128) (n1 := 32) k q := funext fun a => Fin.ext (by
    match a with
    | ⟨0, _⟩ => exact (dotA_rhs0 _ _).trans hk
    | ⟨1, _⟩ => exact dotA_rhs1 _ _)
  rw [el, er]

/-- The stored block of the first layer's kernel at entry (p, q). -/
theorem pay_apply (x0 x1 : Vec Ideal S5000x128 .f32) (x2 x4 : Vec Ideal S128x32 .f32) (x3 : Vec Ideal S1x32 .f32)
    (p : Fin 5000) (q : Fin 32) :
    k0_pay1 (F := Ideal) x0 x1 x2 x4 x3 (ix2 (n0 := 5000) (n1 := 32) p q)
      = max ((∑ k : Fin 128, x0 (ix2 (n0 := 5000) (n1 := 128) p k) * x2 (ix2 (n0 := 128) (n1 := 32) k q)
          + ∑ k : Fin 128, x1 (ix2 (n0 := 5000) (n1 := 128) p k) * x4 (ix2 (n0 := 128) (n1 := 32) k q))
          + x3 (ix2 (n0 := 1) (n1 := 32) 0 q)) 0 := by
  unfold k0_pay1
  simp only [maximumf_apply, addf_apply, broadcast_apply, dotA_apply, truncf_apply, shapeCast_self,
    broadcastTo_1b_ab_apply]
  show max _ (Ideal.ofBits .f32 0x00000000#32) = _
  rw [Ideal.ofBits_zero_f32]

end Cert.KernelIdeal.Body1

end
-- ==== Proof.Layers.lean ====
/-
  The two message-passing layers as functions of whole arrays, index by index, on the extended reals.

  A node's new feature vector is  relu(mean · Wl + x · Wr + b) : the mean of its in-neighbours' features and its own
  features, each through its own weight matrix, plus a bias row.  The second layer is followed by a final linear map
  h2 · Wfc + bfc.  Both programs compute exactly these sums; they differ in the order of the two additions and in how
  the neighbourhood mean is formed (a product with the reciprocal of the degree against a quotient by the degree),
  which is the one scalar law proved here: for d ≠ 0,  a · (1 / d) = a / d  on every extended real a.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- The pattern of the float 1.0 denotes the real number one. -/
theorem one_bits : Ideal.ofBits .f32 0x3F800000#32 = 1 := by
  simp [Ideal.ofBits, Ideal.ieee, -EReal.coe_mul]
  norm_num

/-- A degree clamped below by one is never zero. -/
theorem max_one_ne_zero (x : EReal) : max x (Ideal.ofBits .f32 0x3F800000#32) ≠ 0 := by
  rw [one_bits]
  exact ne_of_gt (lt_of_lt_of_le zero_lt_one (le_max_right x 1))

/-- The product with a reciprocal is the quotient, for any nonzero divisor (infinite ones included: both sides are
    then a · 0). -/
theorem mul_one_div (a d : EReal) (hd : d ≠ 0) : a * Ideal.div (Ideal.ofBits .f32 0x3F800000#32) d = Ideal.div a d := by
  rw [one_bits]
  simp only [Ideal.div, if_neg hd, one_mul]

/-- Layer one at node (i 0), output channel (i 1):
    relu( Σ_k mean[i0,k]·Wl[k,i1] + Σ_k x[i0,k]·Wr[k,i1] + b[i1] ). -/
def layer1 (mean x : FVec Ideal ⟨2, ![100000, 128]⟩ .f32) (Wl : FVec Ideal ⟨2, ![128, 32]⟩ .f32)
    (b : FVec Ideal ⟨2, ![1, 32]⟩ .f32) (Wr : FVec Ideal ⟨2, ![128, 32]⟩ .f32) : FVec Ideal ⟨2, ![100000, 32]⟩ .f32 :=
  fun i => max ((∑ k : Fin 128, mean (ix2 (n0 := 100000) (n1 := 128) (i 0) k) * Wl (ix2 (n0 := 128) (n1 := 32) k (i 1))
      + ∑ k : Fin 128, x (ix2 (n0 := 100000) (n1 := 128) (i 0) k) * Wr (ix2 (n0 := 128) (n1 := 32) k (i 1)))
      + b (ix2 (n0 := 1) (n1 := 32) 0 (i 1))) 0

/-- The hidden row of layer two at node r, channel k: relu( Σ_l mean[r,l]·Wl[l,k] + Σ_l h[r,l]·Wr[l,k] + b[k] ). -/
def hidden2 (mean h : FVec Ideal ⟨2, ![100000, 32]⟩ .f32) (Wl : FVec Ideal ⟨2, ![32, 16]⟩ .f32)
    (b : FVec Ideal ⟨2, ![1, 16]⟩ .f32) (Wr : FVec Ideal ⟨2, ![32, 16]⟩ .f32) (r : Fin 100000) (k : Fin 16) : EReal :=
  max ((∑ l : Fin 32, mean (ix2 (n0 := 100000) (n1 := 32) r l) * Wl (ix2 (n0 := 32) (n1 := 16) l k)
      + ∑ l : Fin 32, h (ix2 (n0 := 100000) (n1 := 32) r l) * Wr (ix2 (n0 := 32) (n1 := 16) l k))
      + b (ix2 (n0 := 1) (n1 := 16) 0 k)) 0

/-- Layer two followed by the final linear map, at node (i 0), class (i 1):
    Σ_k hidden2[i0,k]·Wfc[k,i1] + bfc[i1]. -/
def layer2 (mean h : FVec Ideal ⟨2, ![100000, 32]⟩ .f32) (Wl : FVec Ideal ⟨2, ![32, 16]⟩ .f32)
    (b : FVec Ideal ⟨2, ![1, 16]⟩ .f32) (Wr : FVec Ideal ⟨2, ![32, 16]⟩ .f32) (Wfc : FVec Ideal ⟨2, ![16, 2]⟩ .f32)
    (bfc : FVec Ideal ⟨2, ![1, 2]⟩ .f32) : FVec Ideal ⟨2, ![100000, 2]⟩ .f32 :=
  fun i => (∑ k : Fin 16, hidden2 mean h Wl b Wr (i 0) k * Wfc (ix2 (n0 := 16) (n1 := 2) k (i 1)))
      + bfc (ix2 (n0 := 1) (n1 := 2) 0 (i 1))

/-- Layer one at the entry named by its two coordinates. -/
theorem layer1_apply (mean x : FVec Ideal ⟨2, ![100000, 128]⟩ .f32) (Wl : FVec Ideal ⟨2, ![128, 32]⟩ .f32)
    (b : FVec Ideal ⟨2, ![1, 32]⟩ .f32) (Wr : FVec Ideal ⟨2, ![128, 32]⟩ .f32) (r : Fin 100000) (q : Fin 32) :
    layer1 mean x Wl b Wr (ix2 (n0 := 100000) (n1 := 32) r q)
      = max ((∑ k : Fin 128, mean (ix2 (n0 := 100000) (n1 := 128) r k) * Wl (ix2 (n0 := 128) (n1 := 32) k q)
          + ∑ k : Fin 128, x (ix2 (n0 := 100000) (n1 := 128) r k) * Wr (ix2 (n0 := 128) (n1 := 32) k q))
          + b (ix2 (n0 := 1) (n1 := 32) 0 q)) 0 := rfl

/-- Layer two and the final map at the entry named by its two coordinates. -/
theorem layer2_apply (mean h : FVec Ideal ⟨2, ![100000, 32]⟩ .f32) (Wl : FVec Ideal ⟨2, ![32, 16]⟩ .f32)
    (b : FVec Ideal ⟨2, ![1, 16]⟩ .f32) (Wr : FVec Ideal ⟨2, ![32, 16]⟩ .f32) (Wfc : FVec Ideal ⟨2, ![16, 2]⟩ .f32)
    (bfc : FVec Ideal ⟨2, ![1, 2]⟩ .f32) (r : Fin 100000) (j : Fin 2) :
    layer2 mean h Wl b Wr Wfc bfc (ix2 (n0 := 100000) (n1 := 2) r j)
      = (∑ k : Fin 16, hidden2 mean h Wl b Wr r k * Wfc (ix2 (n0 := 16) (n1 := 2) k j))
          + bfc (ix2 (n0 := 1) (n1 := 2) 0 j) := rfl

end Cert.Sage

end
-- ==== Proof.Array1.lean ====
/-
  The array the first region leaves: every one of the twenty grid steps writes back a block of 5000 rows, and row r of
  the result is the first layer's row of node r computed from the arrays the region was entered with — the
  neighbourhood means, the node features, the two weight matrices and the bias row.  Each staged input block is read as
  entries of its array (rows 5000·t … 5000·t + 4999 for the two row-blocked inputs, the whole array for the weights and
  the bias), the stored block is the body's value entry by entry, and the twenty blocks tile the array.
-/
import proofs.«179205_j70076686401960_1_alg».proof.Proof.Gen.KernelIdeal.Frame
import proofs.«179205_j70076686401960_1_alg».proof.Proof.Body1
import proofs.«179205_j70076686401960_1_alg».proof.Proof.Layers
import Idealize.ShloMosaic.Lib.Pipeline.Value
import Idealize.ShloMosaic.Lib.ValueIdx

set_option maxRecDepth 16384

noncomputable section

namespace Cert.KernelIdeal.Array1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ### Where each window's block sits, at every grid step (decided over the twenty steps) -/

theorem idx0 (t : Fin cfg0.N) : win0_0.index t (0 : Fin 2) = t.val ∧ win0_0.index t (1 : Fin 2) = 0 :=
  (by decide +kernel : ∀ t : Fin grid0.N, win0_0.index t (0 : Fin 2) = t.val ∧ win0_0.index t (1 : Fin 2) = 0) t
theorem idx1 (t : Fin cfg0.N) : win0_1.index t (0 : Fin 2) = t.val ∧ win0_1.index t (1 : Fin 2) = 0 :=
  (by decide +kernel : ∀ t : Fin grid0.N, win0_1.index t (0 : Fin 2) = t.val ∧ win0_1.index t (1 : Fin 2) = 0) t
theorem idx2 (t : Fin cfg0.N) : win0_2.index t (0 : Fin 2) = 0 ∧ win0_2.index t (1 : Fin 2) = 0 :=
  (by decide +kernel : ∀ t : Fin grid0.N, win0_2.index t (0 : Fin 2) = 0 ∧ win0_2.index t (1 : Fin 2) = 0) t
theorem idx3 (t : Fin cfg0.N) : win0_3.index t (0 : Fin 2) = 0 ∧ win0_3.index t (1 : Fin 2) = 0 :=
  (by decide +kernel : ∀ t : Fin grid0.N, win0_3.index t (0 : Fin 2) = 0 ∧ win0_3.index t (1 : Fin 2) = 0) t
theorem idx4 (t : Fin cfg0.N) : win0_4.index t (0 : Fin 2) = 0 ∧ win0_4.index t (1 : Fin 2) = 0 :=
  (by decide +kernel : ∀ t : Fin grid0.N, win0_4.index t (0 : Fin 2) = 0 ∧ win0_4.index t (1 : Fin 2) = 0) t
theorem idx5 (t : Fin cfg0.N) : win0_5.index t (0 : Fin 2) = t.val ∧ win0_5.index t (1 : Fin 2) = 0 :=
  (by decide +kernel : ∀ t : Fin grid0.N, win0_5.index t (0 : Fin 2) = t.val ∧ win0_5.index t (1 : Fin 2) = 0) t

/-! ### Each staged block as entries of the array it is cut from -/

/-- A block of rows of `main_v24`: row p of the block at grid step t is row 5000·t + p of the array. -/
theorem blk0_apply (c : Dev nD) (t : Fin cfg0.N) (p : Fin 5000) (k : Fin 128) (i : Fin 100000) (k' : Fin 128)
    (hi : i.val = t.val * 5000 + p.val) (hk : k'.val = k.val) :
    (iblk0 V c 0 t) (ix2 (n0 := 5000) (n1 := 128) p k) = (V c main_v24) (ix2 (n0 := 100000) (n1 := 128) i k') := by
  obtain ⟨e0, e1⟩ := idx0 t
  show V c main_v24 (((cfg0.win 0).blk t).view.emb (ix2 (n0 := 5000) (n1 := 128) p k)) = V c main_v24 (ix2 (n0 := 100000) (n1 := 128) i k')
  refine congrArg _ (funext fun a => Fin.ext ?_)
  match a with
  | ⟨0, _⟩ => show win0_0.index t (0 : Fin 2) * 5000 + 1 * p.val = i.val; rw [e0, hi]; omega
  | ⟨1, _⟩ => show win0_0.index t (1 : Fin 2) * 128 + 1 * k.val = k'.val; rw [e1, hk]; omega

/-- A block of rows of `main_arg0`: row p of the block at grid step t is row 5000·t + p of the array. -/
theorem blk1_apply (c : Dev nD) (t : Fin cfg0.N) (p : Fin 5000) (k : Fin 128) (i : Fin 100000) (k' : Fin 128)
    (hi : i.val = t.val * 5000 + p.val) (hk : k'.val = k.val) :
    (iblk0 V c 1 t) (ix2 (n0 := 5000) (n1 := 128) p k) = (V c main_arg0) (ix2 (n0 := 100000) (n1 := 128) i k') := by
  obtain ⟨e0, e1⟩ := idx1 t
  show V c main_arg0 (((cfg0.win 1).blk t).view.emb (ix2 (n0 := 5000) (n1 := 128) p k)) = V c main_arg0 (ix2 (n0 := 100000) (n1 := 128) i k')
  refine congrArg _ (funext fun a => Fin.ext ?_)
  match a with
  | ⟨0, _⟩ => show win0_1.index t (0 : Fin 2) * 5000 + 1 * p.val = i.val; rw [e0, hi]; omega
  | ⟨1, _⟩ => show win0_1.index t (1 : Fin 2) * 128 + 1 * k.val = k'.val; rw [e1, hk]; omega

/-- The whole of `main_arg2` is staged at every grid step. -/
theorem blk2_apply (c : Dev nD) (t : Fin cfg0.N) (a0 : Fin 128) (a1 : Fin 32) (b0 : Fin 128) (b1 : Fin 32)
    (h0 : b0.val = a0.val) (h1 : b1.val = a1.val) :
    (iblk0 V c 2 t) (ix2 (n0 := 128) (n1 := 32) a0 a1) = (V c main_arg2) (ix2 (n0 := 128) (n1 := 32) b0 b1) := by
  obtain ⟨e0, e1⟩ := idx2 t
  show V c main_arg2 (((cfg0.win 2).blk t).view.emb (ix2 (n0 := 128) (n1 := 32) a0 a1)) = V c main_arg2 (ix2 (n0 := 128) (n1 := 32) b0 b1)
  refine congrArg _ (funext fun a => Fin.ext ?_)
  match a with
  | ⟨0, _⟩ => show win0_2.index t (0 : Fin 2) * 128 + 1 * a0.val = b0.val; rw [e0, h0]; omega
  | ⟨1, _⟩ => show win0_2.index t (1 : Fin 2) * 32 + 1 * a1.val = b1.val; rw [e1, h1]; omega

/-- The whole of `main_v25` is staged at every grid step. -/
theorem blk3_apply (c : Dev nD) (t : Fin cfg0.N) (a0 : Fin 1) (a1 : Fin 32) (b0 : Fin 1) (b1 : Fin 32)
    (h0 : b0.val = a0.val) (h1 : b1.val = a1.val) :
    (iblk0 V c 3 t) (ix2 (n0 := 1) (n1 := 32) a0 a1) = (V c main_v25) (ix2 (n0 := 1) (n1 := 32) b0 b1) := by
  obtain ⟨e0, e1⟩ := idx3 t
  show V c main_v25 (((cfg0.win 3).blk t).view.emb (ix2 (n0 := 1) (n1 := 32) a0 a1)) = V c main_v25 (ix2 (n0 := 1) (n1 := 32) b0 b1)
  refine congrArg _ (funext fun a => Fin.ext ?_)
  match a with
  | ⟨0, _⟩ => show win0_3.index t (0 : Fin 2) * 1 + 1 * a0.val = b0.val; rw [e0, h0]; omega
  | ⟨1, _⟩ => show win0_3.index t (1 : Fin 2) * 32 + 1 * a1.val = b1.val; rw [e1, h1]; omega

/-- The whole of `main_arg4` is staged at every grid step. -/
theorem blk4_apply (c : Dev nD) (t : Fin cfg0.N) (a0 : Fin 128) (a1 : Fin 32) (b0 : Fin 128) (b1 : Fin 32)
    (h0 : b0.val = a0.val) (h1 : b1.val = a1.val) :
    (iblk0 V c 4 t) (ix2 (n0 := 128) (n1 := 32) a0 a1) = (V c main_arg4) (ix2 (n0 := 128) (n1 := 32) b0 b1) := by
  obtain ⟨e0, e1⟩ := idx4 t
  show V c main_arg4 (((cfg0.win 4).blk t).view.emb (ix2 (n0 := 128) (n1 := 32) a0 a1)) = V c main_arg4 (ix2 (n0 := 128) (n1 := 32) b0 b1)
  refine congrArg _ (funext fun a => Fin.ext ?_)
  match a with
  | ⟨0, _⟩ => show win0_4.index t (0 : Fin 2) * 128 + 1 * a0.val = b0.val; rw [e0, h0]; omega
  | ⟨1, _⟩ => show win0_4.index t (1 : Fin 2) * 32 + 1 * a1.val = b1.val; rw [e1, h1]; omega

/-! ### What a grid step writes back -/

/-- Row p of the output block at step t is row 5000·t + p of the array. -/
theorem out_row (t : Fin cfg0.N) (p : Fin 5000) (q : Fin 32) :
    ((((cfg0.win 5).blk t).view.emb (ix2 (n0 := 5000) (n1 := 32) p q)) 0).val = t.val * 5000 + p.val
    ∧ ((((cfg0.win 5).blk t).view.emb (ix2 (n0 := 5000) (n1 := 32) p q)) 1).val = q.val := by
  obtain ⟨e0, e1⟩ := idx5 t
  constructor
  · show win0_5.index t (0 : Fin 2) * 5000 + 1 * p.val = t.val * 5000 + p.val; rw [e0]; omega
  · show win0_5.index t (1 : Fin 2) * 32 + 1 * q.val = q.val; rw [e1]; omega

/-- What step t writes back is block t of the layer's array. -/
theorem flushed_eq (c : Dev nD) (t : Fin cfg0.N) :
    (dat0 V c).flushed 5 t = ((cfg0.win 5).blk t).view.read (Elt Ideal)
      (Cert.Sage.layer1 (V c main_v24) (V c main_arg0) (V c main_arg2) (V c main_v25) (V c main_arg4)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x32) hz, View.ld_unit_zero (S := S1x32) hz]
  funext y
  obtain ⟨p, q, rfl⟩ : ∃ (p : Fin 5000) (q : Fin 32), y = ix2 (n0 := 5000) (n1 := 32) p q := ⟨y 0, y 1, eq_ix2 y⟩
  obtain ⟨hr, hc⟩ := out_row t p q
  show k0_pay1 (F := Ideal) (iblk0 V c 0 t) (iblk0 V c 1 t) (iblk0 V c 2 t) (iblk0 V c 4 t) (iblk0 V c 3 t) (ix2 (n0 := 5000) (n1 := 32) p q) = Cert.Sage.layer1 (V c main_v24) (V c main_arg0) (V c main_arg2) (V c main_v25) (V c main_arg4) (((cfg0.win 5).blk t).view.emb (ix2 (n0 := 5000) (n1 := 32) p q))
  refine (Body1.pay_apply _ _ _ _ _ p q).trans ?_
  unfold Cert.Sage.layer1
  have hA : ∀ k : Fin 128, (iblk0 V c 0 t) (ix2 (n0 := 5000) (n1 := 128) p k) = (V c main_v24) (ix2 (n0 := 100000) (n1 := 128) ((((cfg0.win 5).blk t).view.emb (ix2 (n0 := 5000) (n1 := 32) p q)) 0) k) :=
    fun k => blk0_apply V c t p k _ k hr rfl
  have hX : ∀ k : Fin 128, (iblk0 V c 1 t) (ix2 (n0 := 5000) (n1 := 128) p k) = (V c main_arg0) (ix2 (n0 := 100000) (n1 := 128) ((((cfg0.win 5).blk t).view.emb (ix2 (n0 := 5000) (n1 := 32) p q)) 0) k) :=
    fun k => blk1_apply V c t p k _ k hr rfl
  have hL : ∀ k : Fin 128, (iblk0 V c 2 t) (ix2 (n0 := 128) (n1 := 32) k q) = (V c main_arg2) (ix2 (n0 := 128) (n1 := 32) k ((((cfg0.win 5).blk t).view.emb (ix2 (n0 := 5000) (n1 := 32) p q)) 1)) :=
    fun k => blk2_apply V c t k q k _ rfl hc
  have hR : ∀ k : Fin 128, (iblk0 V c 4 t) (ix2 (n0 := 128) (n1 := 32) k q) = (V c main_arg4) (ix2 (n0 := 128) (n1 := 32) k ((((cfg0.win 5).blk t).view.emb (ix2 (n0 := 5000) (n1 := 32) p q)) 1)) :=
    fun k => blk4_apply V c t k q k _ rfl hc
  have hB : (iblk0 V c 3 t) (ix2 (n0 := 1) (n1 := 32) 0 q) = (V c main_v25) (ix2 (n0 := 1) (n1 := 32) 0 ((((cfg0.win 5).blk t).view.emb (ix2 (n0 := 5000) (n1 := 32) p q)) 1)) :=
    blk3_apply V c t 0 q 0 _ rfl hc
  simp only [hA, hX, hL, hR, hB]

/-! ### The array after the region -/

/-- An index of the output array lies in step t's block iff its row lies in [5000·t, 5000·t + 5000). -/
theorem mem_blk (t : Fin cfg0.N) (i : S100000x32.Idx) :
    i ∈ ((cfg0.win 5).blk t).view.set ↔ ∀ a : Fin 2, win0_5.index t a * S5000x32.size a ≤ (i a).val ∧ (i a).val < win0_5.index t a * S5000x32.size a + S5000x32.size a := by
  show i ∈ ((View.whole main_v26).slice (win0_5.rect t)).set ↔ _
  rw [View.set_slice_whole, Rect.mem_set_unit]
  exact Iff.rfl

/-- Every row belongs to the block of the step its number divided by 5000 names. -/
theorem cover (i : S100000x32.Idx) :
    ∃ t : Fin cfg0.N, (cfg0.win 5).flush t = true ∧ i ∈ ((cfg0.win 5).blk t).view.set := by
  have hN : grid0.N = 20 := N_0
  have hi0 : (i 0).val < 100000 := (i 0).isLt
  have hi1 : (i 1).val < 32 := (i 1).isLt
  refine ⟨⟨(i 0).val / 5000, by show (i 0).val / 5000 < grid0.N; rw [hN]; omega⟩, flush0_5 _, ?_⟩
  rw [mem_blk]
  obtain ⟨e0, e1⟩ := idx5 ⟨(i 0).val / 5000, by show (i 0).val / 5000 < grid0.N; rw [hN]; omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 32 ≤ (i 1).val ∧ (i 1).val < win0_5.index _ (1 : Fin 2) * 32 + 32
    rw [e1]; omega

/-- The output array after all twenty steps is the layer's array of the arrays the region was entered with. -/
theorem final (c : Dev nD) : (dat0 V c).arrAt 5 cfg0.N = Cert.Sage.layer1 (V c main_v24) (V c main_arg0) (V c main_arg2) (V c main_v25) (V c main_arg4) :=
  (dat0 V c).arrAt_eq_of_cover 5 _ (fun t _ => flushed_eq V c t) (cover)

end Cert.KernelIdeal.Array1

end
-- ==== Proof.Body2.lean ====
/-
  What one grid step of the second kernel computes, entry by entry: from a block of 5000 rows of the neighbourhood means of
  the hidden features and of the hidden features themselves, entry (p, j) of the stored block is
  Σ_k relu( Σ_l mean[p,l]·Wl[l,k] + Σ_l h[p,l]·Wr[l,k] + b[k] ) · Wfc[k,j] + bfc[j] :
  the second layer's row, then the final linear map.  Every change of float format is the identity on the extended reals and
  each matrix product into a zero accumulator is the plain sum over the inner axis.
-/
import proofs.«179205_j70076686401960_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Body2

open Cert.KernelIdeal Cert.KernelIdeal.Gen Idealize.ShloMosaic Idealize.ShloMosaic.TcCoe Idealize.SL.Sem
open Idealize.ShloMosaic.ValueIdx
open Idealize.ShloMosaic.Pipeline (Dat)

/-! ### The matrix product `[5000,32] × [32,16]` into a zero accumulator, read at an entry -/

theorem dotB_lhs0 (i : S5000x16.Idx) (q : dot_S5000x32_S32x16_S5000x16_1_0_0_1_n_n.contr.Idx) : (dot_S5000x32_S32x16_S5000x16_1_0_0_1_n_n.lhsIdx i q 0).val = (i 0).val := by
  unfold DotDims.lhsIdx
  rw [dif_neg (show ¬(0 : Fin S5000x32.rank) ∈ dot_S5000x32_S32x16_S5000x16_1_0_0_1_n_n.lhsBatch by decide), dif_pos (show (0 : Fin S5000x32.rank) ∈ dot_S5000x32_S32x16_S5000x16_1_0_0_1_n_n.lhsNonContracting by decide)]
  rfl
theorem dotB_lhs1 (i : S5000x16.Idx) (q : dot_S5000x32_S32x16_S5000x16_1_0_0_1_n_n.contr.Idx) : (dot_S5000x32_S32x16_S5000x16_1_0_0_1_n_n.lhsIdx i q 1).val = (q ⟨0, by decide⟩).val :=
  dot_S5000x32_S32x16_S5000x16_1_0_0_1_n_n.lhsIdx_val_of_single rfl i q
theorem dotB_rhs0 (i : S5000x16.Idx) (q : dot_S5000x32_S32x16_S5000x16_1_0_0_1_n_n.contr.Idx) : (dot_S5000x32_S32x16_S5000x16_1_0_0_1_n_n.rhsIdx i q 0).val = (q ⟨0, by decide⟩).val :=
  dot_S5000x32_S32x16_S5000x16_1_0_0_1_n_n.rhsIdx_val_of_single rfl i q
theorem dotB_rhs1 (i : S5000x16.Idx) (q : dot_S5000x32_S32x16_S5000x16_1_0_0_1_n_n.contr.Idx) : (dot_S5000x32_S32x16_S5000x16_1_0_0_1_n_n.rhsIdx i q 1).val = (i 1).val := by
  unfold DotDims.rhsIdx
  rw [dif_neg (show ¬(1 : Fin S32x16.rank) ∈ dot_S5000x32_S32x16_S5000x16_1_0_0_1_n_n.rhsBatch by decide), dif_pos (show (1 : Fin S32x16.rank) ∈ dot_S5000x32_S32x16_S5000x16_1_0_0_1_n_n.rhsNonContracting by decide)]
  rfl

/-- Entry (p, q) of the product is the sum over the inner axis of row p of the left factor times column q of the right. -/
theorem dotB_apply {φ₁ φ₂ : FTy} (l : FVec Ideal S5000x32 φ₁) (r : FVec Ideal S32x16 φ₂) (p : Fin 5000) (q : Fin 16) :
    matmul dot_S5000x32_S32x16_S5000x16_1_0_0_1_n_n none l r (constant (F := Ideal) S5000x16 .f32 0x00000000#32) (ix2 (n0 := 5000) (n1 := 16) p q)
      = ∑ k : Fin 32, l (ix2 (n0 := 5000) (n1 := 32) p k) * r (ix2 (n0 := 32) (n1 := 16) k q) := by
  simp only [matmul]
  rw [Ideal.matmul_constant_zero_apply, ← Equiv.sum_comp (contrEquiv1 dot_S5000x32_S32x16_S5000x16_1_0_0_1_n_n 32 rfl rfl).symm]
  refine Finset.sum_congr rfl fun k _ => ?_
  have hk := contrEquiv1_symm_val dot_S5000x32_S32x16_S5000x16_1_0_0_1_n_n 32 rfl rfl k
  have el : dot_S5000x32_S32x16_S5000x16_1_0_0_1_n_n.lhsIdx (ix2 (n0 := 5000) (n1 := 16) p q) ((contrEquiv1 dot_S5000x32_S32x16_S5000x16_1_0_0_1_n_n 32 rfl rfl).symm k) = ix2 (n0 := 5000) (n1 := 32) p k := funext fun a => Fin.ext (by
    match a with
    | ⟨0, _⟩ => exact dotB_lhs0 _ _
    | ⟨1, _⟩ => exact (dotB_lhs1 _ _).trans hk)
  have er : dot_S5000x32_S32x16_S5000x16_1_0_0_1_n_n.rhsIdx (ix2 (n0 := 5000) (n1 := 16) p q) ((contrEquiv1 dot_S5000x32_S32x16_S5000x16_1_0_0_1_n_n 32 rfl rfl).symm k) = ix2 (n0 := 32) (n1 := 16) k q := funext fun a => Fin.ext (by
    match a with
    | ⟨0, _⟩ => exact (dotB_rhs0 _ _).trans hk
    | ⟨1, _⟩ => exact dotB_rhs1 _ _)
  rw [el, er]

/-! ### The matrix product `[5000,16] × [16,2]` into a zero accumulator, read at an entry -/

theorem dotC_lhs0 (i : S5000x2.Idx) (q : dot_S5000x16_S16x2_S5000x2_1_0_0_1_n_n.contr.Idx) : (dot_S5000x16_S16x2_S5000x2_1_0_0_1_n_n.lhsIdx i q 0).val = (i 0).val := by
  unfold DotDims.lhsIdx
  rw [dif_neg (show ¬(0 : Fin S5000x16.rank) ∈ dot_S5000x16_S16x2_S5000x2_1_0_0_1_n_n.lhsBatch by decide), dif_pos (show (0 : Fin S5000x16.rank) ∈ dot_S5000x16_S16x2_S5000x2_1_0_0_1_n_n.lhsNonContracting by decide)]
  rfl
theorem dotC_lhs1 (i : S5000x2.Idx) (q : dot_S5000x16_S16x2_S5000x2_1_0_0_1_n_n.contr.Idx) : (dot_S5000x16_S16x2_S5000x2_1_0_0_1_n_n.lhsIdx i q 1).val = (q ⟨0, by decide⟩).val :=
  dot_S5000x16_S16x2_S5000x2_1_0_0_1_n_n.lhsIdx_val_of_single rfl i q
theorem dotC_rhs0 (i : S5000x2.Idx) (q : dot_S5000x16_S16x2_S5000x2_1_0_0_1_n_n.contr.Idx) : (dot_S5000x16_S16x2_S5000x2_1_0_0_1_n_n.rhsIdx i q 0).val = (q ⟨0, by decide⟩).val :=
  dot_S5000x16_S16x2_S5000x2_1_0_0_1_n_n.rhsIdx_val_of_single rfl i q
theorem dotC_rhs1 (i : S5000x2.Idx) (q : dot_S5000x16_S16x2_S5000x2_1_0_0_1_n_n.contr.Idx) : (dot_S5000x16_S16x2_S5000x2_1_0_0_1_n_n.rhsIdx i q 1).val = (i 1).val := by
  unfold DotDims.rhsIdx
  rw [dif_neg (show ¬(1 : Fin S16x2.rank) ∈ dot_S5000x16_S16x2_S5000x2_1_0_0_1_n_n.rhsBatch by decide), dif_pos (show (1 : Fin S16x2.rank) ∈ dot_S5000x16_S16x2_S5000x2_1_0_0_1_n_n.rhsNonContracting by decide)]
  rfl

/-- Entry (p, q) of the product is the sum over the inner axis of row p of the left factor times column q of the right. -/
theorem dotC_apply {φ₁ φ₂ : FTy} (l : FVec Ideal S5000x16 φ₁) (r : FVec Ideal S16x2 φ₂) (p : Fin 5000) (q : Fin 2) :
    matmul dot_S5000x16_S16x2_S5000x2_1_0_0_1_n_n none l r (constant (F := Ideal) S5000x2 .f32 0x00000000#32) (ix2 (n0 := 5000) (n1 := 2) p q)
      = ∑ k : Fin 16, l (ix2 (n0 := 5000) (n1 := 16) p k) * r (ix2 (n0 := 16) (n1 := 2) k q) := by
  simp only [matmul]
  rw [Ideal.matmul_constant_zero_apply, ← Equiv.sum_comp (contrEquiv1 dot_S5000x16_S16x2_S5000x2_1_0_0_1_n_n 16 rfl rfl).symm]
  refine Finset.sum_congr rfl fun k _ => ?_
  have hk := contrEquiv1_symm_val dot_S5000x16_S16x2_S5000x2_1_0_0_1_n_n 16 rfl rfl k
  have el : dot_S5000x16_S16x2_S5000x2_1_0_0_1_n_n.lhsIdx (ix2 (n0 := 5000) (n1 := 2) p q) ((contrEquiv1 dot_S5000x16_S16x2_S5000x2_1_0_0_1_n_n 16 rfl rfl).symm k) = ix2 (n0 := 5000) (n1 := 16) p k := funext fun a => Fin.ext (by
    match a with
    | ⟨0, _⟩ => exact dotC_lhs0 _ _
    | ⟨1, _⟩ => exact (dotC_lhs1 _ _).trans hk)
  have er : dot_S5000x16_S16x2_S5000x2_1_0_0_1_n_n.rhsIdx (ix2 (n0 := 5000) (n1 := 2) p q) ((contrEquiv1 dot_S5000x16_S16x2_S5000x2_1_0_0_1_n_n 16 rfl rfl).symm k) = ix2 (n0 := 16) (n1 := 2) k q := funext fun a => Fin.ext (by
    match a with
    | ⟨0, _⟩ => exact (dotC_rhs0 _ _).trans hk
    | ⟨1, _⟩ => exact dotC_rhs1 _ _)
  rw [el, er]

/-- The stored block of the second kernel at entry (p, j). -/
theorem pay_apply (x0 x1 : Vec Ideal S5000x32 .f32) (x2 x4 : Vec Ideal S32x16 .f32) (x3 : Vec Ideal S1x16 .f32)
    (x5 : Vec Ideal S16x2 .f32) (x6 : Vec Ideal S1x2 .f32) (p : Fin 5000) (j : Fin 2) :
    k1_pay1 (F := Ideal) x0 x1 x2 x4 x3 x5 x6 (ix2 (n0 := 5000) (n1 := 2) p j)
      = (∑ k : Fin 16, max ((∑ l : Fin 32, x0 (ix2 (n0 := 5000) (n1 := 32) p l) * x2 (ix2 (n0 := 32) (n1 := 16) l k)
            + ∑ l : Fin 32, x1 (ix2 (n0 := 5000) (n1 := 32) p l) * x4 (ix2 (n0 := 32) (n1 := 16) l k))
            + x3 (ix2 (n0 := 1) (n1 := 16) 0 k)) 0 * x5 (ix2 (n0 := 16) (n1 := 2) k j))
          + x6 (ix2 (n0 := 1) (n1 := 2) 0 j) := by
  unfold k1_pay1
  simp only [maximumf_apply, addf_apply, broadcast_apply, dotB_apply, dotC_apply, truncf_apply, shapeCast_self,
    broadcastTo_1b_ab_apply]
  simp only [show (FloatOps.ofBits (F := Ideal) .f32 0x00000000#32 : EReal) = 0 from Ideal.ofBits_zero_f32]

end Cert.KernelIdeal.Body2

end
-- ==== Proof.Array2.lean ====
/-
  The array the second region leaves: every one of the twenty grid steps writes back a block of 5000 rows, and row r of
  the result is the second layer's row of node r followed by the final linear map, computed from the arrays the region was
  entered with — the neighbourhood means of the hidden features, the hidden features, the layer's two weight matrices
  and bias row, the final weights and bias row.  Each staged input block is read as entries of its array, the stored block
  is the body's value entry by entry, and the twenty blocks tile the array.
-/
import proofs.«179205_j70076686401960_1_alg».proof.Proof.Gen.KernelIdeal.Frame
import proofs.«179205_j70076686401960_1_alg».proof.Proof.Body2
import proofs.«179205_j70076686401960_1_alg».proof.Proof.Layers
import Idealize.ShloMosaic.Lib.Pipeline.Value
import Idealize.ShloMosaic.Lib.ValueIdx

set_option maxRecDepth 16384

noncomputable section

namespace Cert.KernelIdeal.Array2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ### Where each window's block sits, at every grid step (decided over the twenty steps) -/

theorem idx0 (t : Fin cfg1.N) : win1_0.index t (0 : Fin 2) = t.val ∧ win1_0.index t (1 : Fin 2) = 0 :=
  (by decide +kernel : ∀ t : Fin grid1.N, win1_0.index t (0 : Fin 2) = t.val ∧ win1_0.index t (1 : Fin 2) = 0) t
theorem idx1 (t : Fin cfg1.N) : win1_1.index t (0 : Fin 2) = t.val ∧ win1_1.index t (1 : Fin 2) = 0 :=
  (by decide +kernel : ∀ t : Fin grid1.N, win1_1.index t (0 : Fin 2) = t.val ∧ win1_1.index t (1 : Fin 2) = 0) t
theorem idx2 (t : Fin cfg1.N) : win1_2.index t (0 : Fin 2) = 0 ∧ win1_2.index t (1 : Fin 2) = 0 :=
  (by decide +kernel : ∀ t : Fin grid1.N, win1_2.index t (0 : Fin 2) = 0 ∧ win1_2.index t (1 : Fin 2) = 0) t
theorem idx3 (t : Fin cfg1.N) : win1_3.index t (0 : Fin 2) = 0 ∧ win1_3.index t (1 : Fin 2) = 0 :=
  (by decide +kernel : ∀ t : Fin grid1.N, win1_3.index t (0 : Fin 2) = 0 ∧ win1_3.index t (1 : Fin 2) = 0) t
theorem idx4 (t : Fin cfg1.N) : win1_4.index t (0 : Fin 2) = 0 ∧ win1_4.index t (1 : Fin 2) = 0 :=
  (by decide +kernel : ∀ t : Fin grid1.N, win1_4.index t (0 : Fin 2) = 0 ∧ win1_4.index t (1 : Fin 2) = 0) t
theorem idx5 (t : Fin cfg1.N) : win1_5.index t (0 : Fin 2) = 0 ∧ win1_5.index t (1 : Fin 2) = 0 :=
  (by decide +kernel : ∀ t : Fin grid1.N, win1_5.index t (0 : Fin 2) = 0 ∧ win1_5.index t (1 : Fin 2) = 0) t
theorem idx6 (t : Fin cfg1.N) : win1_6.index t (0 : Fin 2) = 0 ∧ win1_6.index t (1 : Fin 2) = 0 :=
  (by decide +kernel : ∀ t : Fin grid1.N, win1_6.index t (0 : Fin 2) = 0 ∧ win1_6.index t (1 : Fin 2) = 0) t
theorem idx7 (t : Fin cfg1.N) : win1_7.index t (0 : Fin 2) = t.val ∧ win1_7.index t (1 : Fin 2) = 0 :=
  (by decide +kernel : ∀ t : Fin grid1.N, win1_7.index t (0 : Fin 2) = t.val ∧ win1_7.index t (1 : Fin 2) = 0) t

/-! ### Each staged block as entries of the array it is cut from -/

/-- A block of rows of `main_v39`: row p of the block at grid step t is row 5000·t + p of the array. -/
theorem blk0_apply (c : Dev nD) (t : Fin cfg1.N) (p : Fin 5000) (k : Fin 32) (i : Fin 100000) (k' : Fin 32)
    (hi : i.val = t.val * 5000 + p.val) (hk : k'.val = k.val) :
    (iblk1 V c 0 t) (ix2 (n0 := 5000) (n1 := 32) p k) = (V c main_v39) (ix2 (n0 := 100000) (n1 := 32) i k') := by
  obtain ⟨e0, e1⟩ := idx0 t
  show V c main_v39 (((cfg1.win 0).blk t).view.emb (ix2 (n0 := 5000) (n1 := 32) p k)) = V c main_v39 (ix2 (n0 := 100000) (n1 := 32) i k')
  refine congrArg _ (funext fun a => Fin.ext ?_)
  match a with
  | ⟨0, _⟩ => show win1_0.index t (0 : Fin 2) * 5000 + 1 * p.val = i.val; rw [e0, hi]; omega
  | ⟨1, _⟩ => show win1_0.index t (1 : Fin 2) * 32 + 1 * k.val = k'.val; rw [e1, hk]; omega

/-- A block of rows of `main_v26`: row p of the block at grid step t is row 5000·t + p of the array. -/
theorem blk1_apply (c : Dev nD) (t : Fin cfg1.N) (p : Fin 5000) (k : Fin 32) (i : Fin 100000) (k' : Fin 32)
    (hi : i.val = t.val * 5000 + p.val) (hk : k'.val = k.val) :
    (iblk1 V c 1 t) (ix2 (n0 := 5000) (n1 := 32) p k) = (V c main_v26) (ix2 (n0 := 100000) (n1 := 32) i k') := by
  obtain ⟨e0, e1⟩ := idx1 t
  show V c main_v26 (((cfg1.win 1).blk t).view.emb (ix2 (n0 := 5000) (n1 := 32) p k)) = V c main_v26 (ix2 (n0 := 100000) (n1 := 32) i k')
  refine congrArg _ (funext fun a => Fin.ext ?_)
  match a with
  | ⟨0, _⟩ => show win1_1.index t (0 : Fin 2) * 5000 + 1 * p.val = i.val; rw [e0, hi]; omega
  | ⟨1, _⟩ => show win1_1.index t (1 : Fin 2) * 32 + 1 * k.val = k'.val; rw [e1, hk]; omega

/-- The whole of `main_arg5` is staged at every grid step. -/
theorem blk2_apply (c : Dev nD) (t : Fin cfg1.N) (a0 : Fin 32) (a1 : Fin 16) (b0 : Fin 32) (b1 : Fin 16)
    (h0 : b0.val = a0.val) (h1 : b1.val = a1.val) :
    (iblk1 V c 2 t) (ix2 (n0 := 32) (n1 := 16) a0 a1) = (V c main_arg5) (ix2 (n0 := 32) (n1 := 16) b0 b1) := by
  obtain ⟨e0, e1⟩ := idx2 t
  show V c main_arg5 (((cfg1.win 2).blk t).view.emb (ix2 (n0 := 32) (n1 := 16) a0 a1)) = V c main_arg5 (ix2 (n0 := 32) (n1 := 16) b0 b1)
  refine congrArg _ (funext fun a => Fin.ext ?_)
  match a with
  | ⟨0, _⟩ => show win1_2.index t (0 : Fin 2) * 32 + 1 * a0.val = b0.val; rw [e0, h0]; omega
  | ⟨1, _⟩ => show win1_2.index t (1 : Fin 2) * 16 + 1 * a1.val = b1.val; rw [e1, h1]; omega

/-- The whole of `main_v40` is staged at every grid step. -/
theorem blk3_apply (c : Dev nD) (t : Fin cfg1.N) (a0 : Fin 1) (a1 : Fin 16) (b0 : Fin 1) (b1 : Fin 16)
    (h0 : b0.val = a0.val) (h1 : b1.val = a1.val) :
    (iblk1 V c 3 t) (ix2 (n0 := 1) (n1 := 16) a0 a1) = (V c main_v40) (ix2 (n0 := 1) (n1 := 16) b0 b1) := by
  obtain ⟨e0, e1⟩ := idx3 t
  show V c main_v40 (((cfg1.win 3).blk t).view.emb (ix2 (n0 := 1) (n1 := 16) a0 a1)) = V c main_v40 (ix2 (n0 := 1) (n1 := 16) b0 b1)
  refine congrArg _ (funext fun a => Fin.ext ?_)
  match a with
  | ⟨0, _⟩ => show win1_3.index t (0 : Fin 2) * 1 + 1 * a0.val = b0.val; rw [e0, h0]; omega
  | ⟨1, _⟩ => show win1_3.index t (1 : Fin 2) * 16 + 1 * a1.val = b1.val; rw [e1, h1]; omega

/-- The whole of `main_arg7` is staged at every grid step. -/
theorem blk4_apply (c : Dev nD) (t : Fin cfg1.N) (a0 : Fin 32) (a1 : Fin 16) (b0 : Fin 32) (b1 : Fin 16)
    (h0 : b0.val = a0.val) (h1 : b1.val = a1.val) :
    (iblk1 V c 4 t) (ix2 (n0 := 32) (n1 := 16) a0 a1) = (V c main_arg7) (ix2 (n0 := 32) (n1 := 16) b0 b1) := by
  obtain ⟨e0, e1⟩ := idx4 t
  show V c main_arg7 (((cfg1.win 4).blk t).view.emb (ix2 (n0 := 32) (n1 := 16) a0 a1)) = V c main_arg7 (ix2 (n0 := 32) (n1 := 16) b0 b1)
  refine congrArg _ (funext fun a => Fin.ext ?_)
  match a with
  | ⟨0, _⟩ => show win1_4.index t (0 : Fin 2) * 32 + 1 * a0.val = b0.val; rw [e0, h0]; omega
  | ⟨1, _⟩ => show win1_4.index t (1 : Fin 2) * 16 + 1 * a1.val = b1.val; rw [e1, h1]; omega

/-- The whole of `main_arg8` is staged at every grid step. -/
theorem blk5_apply (c : Dev nD) (t : Fin cfg1.N) (a0 : Fin 16) (a1 : Fin 2) (b0 : Fin 16) (b1 : Fin 2)
    (h0 : b0.val = a0.val) (h1 : b1.val = a1.val) :
    (iblk1 V c 5 t) (ix2 (n0 := 16) (n1 := 2) a0 a1) = (V c main_arg8) (ix2 (n0 := 16) (n1 := 2) b0 b1) := by
  obtain ⟨e0, e1⟩ := idx5 t
  show V c main_arg8 (((cfg1.win 5).blk t).view.emb (ix2 (n0 := 16) (n1 := 2) a0 a1)) = V c main_arg8 (ix2 (n0 := 16) (n1 := 2) b0 b1)
  refine congrArg _ (funext fun a => Fin.ext ?_)
  match a with
  | ⟨0, _⟩ => show win1_5.index t (0 : Fin 2) * 16 + 1 * a0.val = b0.val; rw [e0, h0]; omega
  | ⟨1, _⟩ => show win1_5.index t (1 : Fin 2) * 2 + 1 * a1.val = b1.val; rw [e1, h1]; omega

/-- The whole of `main_v41` is staged at every grid step. -/
theorem blk6_apply (c : Dev nD) (t : Fin cfg1.N) (a0 : Fin 1) (a1 : Fin 2) (b0 : Fin 1) (b1 : Fin 2)
    (h0 : b0.val = a0.val) (h1 : b1.val = a1.val) :
    (iblk1 V c 6 t) (ix2 (n0 := 1) (n1 := 2) a0 a1) = (V c main_v41) (ix2 (n0 := 1) (n1 := 2) b0 b1) := by
  obtain ⟨e0, e1⟩ := idx6 t
  show V c main_v41 (((cfg1.win 6).blk t).view.emb (ix2 (n0 := 1) (n1 := 2) a0 a1)) = V c main_v41 (ix2 (n0 := 1) (n1 := 2) b0 b1)
  refine congrArg _ (funext fun a => Fin.ext ?_)
  match a with
  | ⟨0, _⟩ => show win1_6.index t (0 : Fin 2) * 1 + 1 * a0.val = b0.val; rw [e0, h0]; omega
  | ⟨1, _⟩ => show win1_6.index t (1 : Fin 2) * 2 + 1 * a1.val = b1.val; rw [e1, h1]; omega

/-! ### What a grid step writes back -/

/-- Row p of the output block at step t is row 5000·t + p of the array. -/
theorem out_row (t : Fin cfg1.N) (p : Fin 5000) (q : Fin 2) :
    ((((cfg1.win 7).blk t).view.emb (ix2 (n0 := 5000) (n1 := 2) p q)) 0).val = t.val * 5000 + p.val
    ∧ ((((cfg1.win 7).blk t).view.emb (ix2 (n0 := 5000) (n1 := 2) p q)) 1).val = q.val := by
  obtain ⟨e0, e1⟩ := idx7 t
  constructor
  · show win1_7.index t (0 : Fin 2) * 5000 + 1 * p.val = t.val * 5000 + p.val; rw [e0]; omega
  · show win1_7.index t (1 : Fin 2) * 2 + 1 * q.val = q.val; rw [e1]; omega

/-- What step t writes back is block t of the layer's array. -/
theorem flushed_eq (c : Dev nD) (t : Fin cfg1.N) :
    (dat1 V c).flushed 7 t = ((cfg1.win 7).blk t).view.read (Elt Ideal)
      (Cert.Sage.layer2 (V c main_v39) (V c main_v26) (V c main_arg5) (V c main_v40) (V c main_arg7) (V c main_arg8) (V c main_v41)) := by
  show (cfg1.win 7).cut (grid1.coords t) ((dat1 V c).after 7 t) = _
  rw [after1_7]
  unfold out1_7
  rw [View.canon_unit_zero hz]
  simp only [View.ld_unit_zero (S := S5000x32) hz, View.ld_unit_zero (S := S32x16) hz, View.ld_unit_zero (S := S1x16) hz, View.ld_unit_zero (S := S16x2) hz, View.ld_unit_zero (S := S1x2) hz]
  funext y
  obtain ⟨p, q, rfl⟩ : ∃ (p : Fin 5000) (q : Fin 2), y = ix2 (n0 := 5000) (n1 := 2) p q := ⟨y 0, y 1, eq_ix2 y⟩
  obtain ⟨hr, hc⟩ := out_row t p q
  show k1_pay1 (F := Ideal) (iblk1 V c 0 t) (iblk1 V c 1 t) (iblk1 V c 2 t) (iblk1 V c 4 t) (iblk1 V c 3 t) (iblk1 V c 5 t) (iblk1 V c 6 t) (ix2 (n0 := 5000) (n1 := 2) p q) = Cert.Sage.layer2 (V c main_v39) (V c main_v26) (V c main_arg5) (V c main_v40) (V c main_arg7) (V c main_arg8) (V c main_v41) (((cfg1.win 7).blk t).view.emb (ix2 (n0 := 5000) (n1 := 2) p q))
  refine (Body2.pay_apply _ _ _ _ _ _ _ p q).trans ?_
  unfold Cert.Sage.layer2 Cert.Sage.hidden2
  have hA : ∀ l : Fin 32, (iblk1 V c 0 t) (ix2 (n0 := 5000) (n1 := 32) p l) = (V c main_v39) (ix2 (n0 := 100000) (n1 := 32) ((((cfg1.win 7).blk t).view.emb (ix2 (n0 := 5000) (n1 := 2) p q)) 0) l) :=
    fun l => blk0_apply V c t p l _ l hr rfl
  have hH : ∀ l : Fin 32, (iblk1 V c 1 t) (ix2 (n0 := 5000) (n1 := 32) p l) = (V c main_v26) (ix2 (n0 := 100000) (n1 := 32) ((((cfg1.win 7).blk t).view.emb (ix2 (n0 := 5000) (n1 := 2) p q)) 0) l) :=
    fun l => blk1_apply V c t p l _ l hr rfl
  have hL : ∀ (l : Fin 32) (k : Fin 16), (iblk1 V c 2 t) (ix2 (n0 := 32) (n1 := 16) l k) = (V c main_arg5) (ix2 (n0 := 32) (n1 := 16) l k) :=
    fun l k => blk2_apply V c t l k l k rfl rfl
  have hB : ∀ k : Fin 16, (iblk1 V c 3 t) (ix2 (n0 := 1) (n1 := 16) 0 k) = (V c main_v40) (ix2 (n0 := 1) (n1 := 16) 0 k) :=
    fun k => blk3_apply V c t 0 k 0 k rfl rfl
  have hR : ∀ (l : Fin 32) (k : Fin 16), (iblk1 V c 4 t) (ix2 (n0 := 32) (n1 := 16) l k) = (V c main_arg7) (ix2 (n0 := 32) (n1 := 16) l k) :=
    fun l k => blk4_apply V c t l k l k rfl rfl
  have hF : ∀ k : Fin 16, (iblk1 V c 5 t) (ix2 (n0 := 16) (n1 := 2) k q) = (V c main_arg8) (ix2 (n0 := 16) (n1 := 2) k ((((cfg1.win 7).blk t).view.emb (ix2 (n0 := 5000) (n1 := 2) p q)) 1)) :=
    fun k => blk5_apply V c t k q k _ rfl hc
  have hG : (iblk1 V c 6 t) (ix2 (n0 := 1) (n1 := 2) 0 q) = (V c main_v41) (ix2 (n0 := 1) (n1 := 2) 0 ((((cfg1.win 7).blk t).view.emb (ix2 (n0 := 5000) (n1 := 2) p q)) 1)) :=
    blk6_apply V c t 0 q 0 _ rfl hc
  simp only [hA, hH, hL, hB, hR, hF, hG]

/-! ### The array after the region -/

/-- An index of the output array lies in step t's block iff its row lies in [5000·t, 5000·t + 5000). -/
theorem mem_blk (t : Fin cfg1.N) (i : S100000x2.Idx) :
    i ∈ ((cfg1.win 7).blk t).view.set ↔ ∀ a : Fin 2, win1_7.index t a * S5000x2.size a ≤ (i a).val ∧ (i a).val < win1_7.index t a * S5000x2.size a + S5000x2.size a := by
  show i ∈ ((View.whole main_v42).slice (win1_7.rect t)).set ↔ _
  rw [View.set_slice_whole, Rect.mem_set_unit]
  exact Iff.rfl

/-- Every row belongs to the block of the step its number divided by 5000 names. -/
theorem cover (i : S100000x2.Idx) :
    ∃ t : Fin cfg1.N, (cfg1.win 7).flush t = true ∧ i ∈ ((cfg1.win 7).blk t).view.set := by
  have hN : grid1.N = 20 := N_1
  have hi0 : (i 0).val < 100000 := (i 0).isLt
  have hi1 : (i 1).val < 2 := (i 1).isLt
  refine ⟨⟨(i 0).val / 5000, by show (i 0).val / 5000 < grid1.N; rw [hN]; omega⟩, flush1_7 _, ?_⟩
  rw [mem_blk]
  obtain ⟨e0, e1⟩ := idx7 ⟨(i 0).val / 5000, by show (i 0).val / 5000 < grid1.N; rw [hN]; omega⟩
  intro a
  match a with
  | ⟨0, _⟩ =>
    show win1_7.index _ (0 : Fin 2) * 5000 ≤ (i 0).val ∧ (i 0).val < win1_7.index _ (0 : Fin 2) * 5000 + 5000
    rw [e0]; show (i 0).val / 5000 * 5000 ≤ (i 0).val ∧ (i 0).val < (i 0).val / 5000 * 5000 + 5000; omega
  | ⟨1, _⟩ =>
    show win1_7.index _ (1 : Fin 2) * 2 ≤ (i 1).val ∧ (i 1).val < win1_7.index _ (1 : Fin 2) * 2 + 2
    rw [e1]; omega

/-- The output array after all twenty steps is the layer's array of the arrays the region was entered with. -/
theorem final (c : Dev nD) : (dat1 V c).arrAt 7 cfg1.N = Cert.Sage.layer2 (V c main_v39) (V c main_v26) (V c main_arg5) (V c main_v40) (V c main_arg7) (V c main_arg8) (V c main_v41) :=
  (dat1 V c).arrAt_eq_of_cover 7 _ (fun t _ => flushed_eq V c t) (cover)

end Cert.KernelIdeal.Array2

end
-- ==== Proof.RefStages.lean ====
/-
  The reference's aggregation stages with their inputs made explicit.  The reference gathers the hidden features of the
  first layer along the edges and scatter-adds them per destination node; here that stage is written as a function of an
  arbitrary feature array and of the edge list's two rows, so that it can be applied to the other program's hidden array
  before the two are known to agree.  The reference also forms the clamped degree twice, once per layer, by the same
  operations on the same edge row: the two are one term.  All of this only names terms; it holds for any reading of the
  float operations.
-/
import proofs.«179205_j70076686401960_1_alg».proof.Proof.Gen.ReferenceIdeal.Read

set_option maxRecDepth 16384

noncomputable section

namespace Cert.ReferenceIdeal.Stages

open Cert.ReferenceIdeal Cert.ReferenceIdeal.Gen Cert.ReferenceIdeal.Read Idealize.ShloMosaic Idealize.ShloMosaic.TcCoe

variable {F : FTy → Type} [FloatOps F]

/-- Per destination node, the sum of the rows of `h` at the source ends of its incoming edges (a source index below
    zero is first shifted up by the node count, as the gather's index normalisation does). -/
def neighbourSums32 (h : FVec F S100000x32 .f32) (src dst : IVec S1600000 32) : FVec F S100000x32 .f32 :=
  Host.scatterAdd scatter_S100000x32_S1600000x1_S1600000x32_1_0_0_1 (val_main_v37 (F := F))
    (broadcastInDim S1600000x1 ![0] bcast_S1600000_S1600000x1_0 dst)
    (Host.gather gather_S100000x32_S1600000x1_S1600000x32_1_0_n_n_0_1_132 h
      (broadcastInDim S1600000x1 ![0] bcast_S1600000_S1600000x1_0
        (select (cmpi .slt src (val_main_v30 (F := F))) (addi src (val_main_v32 (F := F))) src)))

/-- The reference's second aggregation is that function of its own first hidden array and the edge rows. -/
theorem sums_of_hidden (x0 : FVec F S100000x128 .f32) (x1 : IVec S2x1600000 32) (x2 : FVec F S128x32 .f32)
    (x3 : FVec F S32 .f32) (x4 : FVec F S128x32 .f32) :
    val_main_v39 (F := F) x0 x1 x2 x3 x4
      = neighbourSums32 (val_main_v29 (F := F) x0 x1 x2 x3 x4) (val_main_v1 (F := F) x1) (val_main_v3 (F := F) x1) := rfl

/-- The clamped degree the reference forms for its second layer is the one it formed for its first. -/
theorem degree_again (x1 : IVec S2x1600000 32) : val_main_v45 (F := F) x1 = val_main_v19 (F := F) x1 := rfl

/-- The first layer's divisor array: the clamped degree of the row, repeated along the 128 features. -/
theorem divisor128 (x1 : IVec S2x1600000 32) :
    val_main_v21 (F := F) x1 = broadcastInDim S100000x128 ![0, 1] bcast_S100000x1_S100000x128_0_1
      (broadcastInDim S100000x1 ![0] bcast_S100000_S100000x1_0 (val_main_v19 (F := F) x1)) := rfl

/-- The second layer's divisor array: the same clamped degree, repeated along the 32 hidden features. -/
theorem divisor32 (x1 : IVec S2x1600000 32) :
    val_main_v47 (F := F) x1 = broadcastInDim S100000x32 ![0, 1] bcast_S100000x1_S100000x32_0_1
      (broadcastInDim S100000x1 ![0] bcast_S100000_S100000x1_0 (val_main_v19 (F := F) x1)) := by
  unfold val_main_v47 val_main_v46
  rw [degree_again]

end Cert.ReferenceIdeal.Stages

end
-- ==== Proof.HostSide.lean ====
/-
  What the host operations around the two regions compute, named in the reference program's own stages.  Before the first
  region the program slices the edge list into its source and destination rows, counts each node's in-degree by a
  scatter-add of ones, takes the reciprocal of the degree clamped below by one, gathers the neighbours' features along the
  edges and scatter-adds them per destination, and multiplies by the reciprocal degree; it also recasts the first bias to
  one row.  Between the regions it does the same gather, scatter-add and product on the first region's result and recasts
  the other two biases.  These are, operation for operation, the reference's own gather and scatter-add stages — only the
  last step differs (a product with the reciprocal where the reference divides) —, so each value is stated as the
  reference's stage applied to the same arrays.  Everything here holds for any reading of the float operations: it only
  says which operations are applied to which arrays.
-/
import proofs.«179205_j70076686401960_1_alg».proof.Proof.Gen.KernelIdeal.Frame
import proofs.«179205_j70076686401960_1_alg».proof.Proof.Gen.ReferenceIdeal.Read
import proofs.«179205_j70076686401960_1_alg».proof.Proof.RefStages

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo
open Cert.ReferenceIdeal.Read

variable {F : FTy → Type} [FloatOps F]
variable (W : Valuation τ sig (Elt F))

/-! ### The stretch before the first region -/

/-- The edges' source row. -/
theorem src_eq : after (hostOps0 (F := F)) W (Proc.devRef .tc main_v1)
    = val_main_v1 (F := F) (W (Proc.devRef .tc main_arg1)) := by
  dsimp only [hostOps0]; after_results; rfl

/-- The edges' destination row. -/
theorem dst_eq : after (hostOps0 (F := F)) W (Proc.devRef .tc main_v3)
    = val_main_v3 (F := F) (W (Proc.devRef .tc main_arg1)) := by
  dsimp only [hostOps0]; after_results; rfl

/-- The reciprocal of the clamped in-degree. -/
theorem recip_eq : after (hostOps0 (F := F)) W (Proc.devRef .tc main_v11)
    = Host.divf (val_main_v18 (F := F)) (val_main_v19 (F := F) (W (Proc.devRef .tc main_arg1))) := by
  dsimp only [hostOps0]; after_results; rfl

/-- The first bias as one row. -/
theorem bias1_eq : after (hostOps0 (F := F)) W (Proc.devRef .tc main_v25)
    = shapeCast S1x32 (W (Proc.devRef .tc main_arg3)) shapeCasts_S32_S1x32 := by
  dsimp only [hostOps0]; after_results; rfl

set_option maxHeartbeats 1600000 in
/-- The neighbourhood sums of the node features times the reciprocal degree. -/
theorem mean1_eq : after (hostOps0 (F := F)) W (Proc.devRef .tc main_v24)
    = mulf (val_main_v13 (F := F) (W (Proc.devRef .tc main_arg0)) (W (Proc.devRef .tc main_arg1)))
        (broadcastInDim S100000x128 ![0, 1] bcast_S100000x1_S100000x128_0_1
          (broadcastInDim S100000x1 ![0] bcast_S100000_S100000x1_0
            (Host.divf (val_main_v18 (F := F)) (val_main_v19 (F := F) (W (Proc.devRef .tc main_arg1)))))) := by
  dsimp only [hostOps0]; after_results_simp; rfl

/-- The arrays this stretch does not write keep their contents. -/
theorem kept0_main_arg0 : after (hostOps0 (F := F)) W (Proc.devRef .tc main_arg0) = W (Proc.devRef .tc main_arg0) := by
  dsimp only [hostOps0]; after_results <;> rfl
theorem kept0_main_arg2 : after (hostOps0 (F := F)) W (Proc.devRef .tc main_arg2) = W (Proc.devRef .tc main_arg2) := by
  dsimp only [hostOps0]; after_results <;> rfl
theorem kept0_main_arg4 : after (hostOps0 (F := F)) W (Proc.devRef .tc main_arg4) = W (Proc.devRef .tc main_arg4) := by
  dsimp only [hostOps0]; after_results <;> rfl
theorem kept0_main_arg5 : after (hostOps0 (F := F)) W (Proc.devRef .tc main_arg5) = W (Proc.devRef .tc main_arg5) := by
  dsimp only [hostOps0]; after_results <;> rfl
theorem kept0_main_arg6 : after (hostOps0 (F := F)) W (Proc.devRef .tc main_arg6) = W (Proc.devRef .tc main_arg6) := by
  dsimp only [hostOps0]; after_results <;> rfl
theorem kept0_main_arg7 : after (hostOps0 (F := F)) W (Proc.devRef .tc main_arg7) = W (Proc.devRef .tc main_arg7) := by
  dsimp only [hostOps0]; after_results <;> rfl
theorem kept0_main_arg8 : after (hostOps0 (F := F)) W (Proc.devRef .tc main_arg8) = W (Proc.devRef .tc main_arg8) := by
  dsimp only [hostOps0]; after_results <;> rfl
theorem kept0_main_arg9 : after (hostOps0 (F := F)) W (Proc.devRef .tc main_arg9) = W (Proc.devRef .tc main_arg9) := by
  dsimp only [hostOps0]; after_results <;> rfl

/-! ### The stretch between the regions -/

set_option maxHeartbeats 1600000 in
/-- The neighbourhood sums of the first region's result times the reciprocal degree, from whatever the stretch finds in
    the result's buffer, in the two edge rows and in the reciprocal's buffer. -/
theorem mean2_eq : after (hostOps1 (F := F)) W (Proc.devRef .tc main_v39)
    = mulf (Cert.ReferenceIdeal.Stages.neighbourSums32 (F := F) (W (Proc.devRef .tc main_v26)) (W (Proc.devRef .tc main_v1))
          (W (Proc.devRef .tc main_v3)))
        (broadcastInDim S100000x32 ![0, 1] bcast_S100000x1_S100000x32_0_1
          (broadcastInDim S100000x1 ![0] bcast_S100000_S100000x1_0 (W (Proc.devRef .tc main_v11)))) := by
  dsimp only [hostOps1]; after_results_simp; rfl

/-- The second bias as one row. -/
theorem bias2_eq : after (hostOps1 (F := F)) W (Proc.devRef .tc main_v40)
    = shapeCast S1x16 (W (Proc.devRef .tc main_arg6)) shapeCasts_S16_S1x16 := by
  dsimp only [hostOps1]; after_results; rfl

/-- The final bias as one row. -/
theorem bias3_eq : after (hostOps1 (F := F)) W (Proc.devRef .tc main_v41)
    = shapeCast S1x2 (W (Proc.devRef .tc main_arg9)) shapeCasts_S2_S1x2 := by
  dsimp only [hostOps1]; after_results; rfl

/-- The arrays this stretch does not write keep their contents. -/
theorem kept1_main_v26 : after (hostOps1 (F := F)) W (Proc.devRef .tc main_v26) = W (Proc.devRef .tc main_v26) := by
  dsimp only [hostOps1]; after_results <;> rfl
theorem kept1_main_arg5 : after (hostOps1 (F := F)) W (Proc.devRef .tc main_arg5) = W (Proc.devRef .tc main_arg5) := by
  dsimp only [hostOps1]; after_results <;> rfl
theorem kept1_main_arg7 : after (hostOps1 (F := F)) W (Proc.devRef .tc main_arg7) = W (Proc.devRef .tc main_arg7) := by
  dsimp only [hostOps1]; after_results <;> rfl
theorem kept1_main_arg8 : after (hostOps1 (F := F)) W (Proc.devRef .tc main_arg8) = W (Proc.devRef .tc main_arg8) := by
  dsimp only [hostOps1]; after_results <;> rfl

end Cert.KernelIdeal.HostSide

end
-- ==== Proof.RefLayers.lean ====
/-
  The reference program's stages are the two layers.  Read entry by entry, the reference's first hidden array is
  relu( (mean·Wl + b) + x·Wr ) and its result is relu( (mean2·W2l + b2) + h·W2r )·Wfc + bfc, with the sums over the inner
  axes written out; the layers' functions add the two products first and the bias last, which is the same extended real
  because addition of extended reals is commutative and associative.  The bias rows enter the layers as one-row arrays:
  a vector recast to one row reads, at (0, j), its entry j.
-/
import proofs.«179205_j70076686401960_1_alg».proof.Proof.Gen.ReferenceIdeal.Read
import proofs.«179205_j70076686401960_1_alg».proof.Proof.Layers
import Idealize.ShloMosaic.Lib.ValueLayout

set_option maxRecDepth 16384

noncomputable section

namespace Cert.ReferenceIdeal.Layers

open Cert.ReferenceIdeal Cert.ReferenceIdeal.Gen Cert.ReferenceIdeal.Read Idealize.ShloMosaic Idealize.ShloMosaic.TcCoe
open Idealize.ShloMosaic.ValueIdx

/-- The pattern of the float zero denotes the real number zero. -/
theorem zero_bits : (FloatOps.ofBits (F := Ideal) .f32 0x00000000#32 : EReal) = 0 := Ideal.ofBits_zero_f32

/-! ### The index maps of the reference's stages, at an entry named by its coordinates -/

theorem lidx23 (r : Fin 100000) (q : Fin 32) (k : Fin 128) : lidx_main_v23 (ix2 (n0 := 100000) (n1 := 32) r q) k = ix2 (n0 := 100000) (n1 := 128) r k :=
  funext fun a => Fin.ext (by match a with | ⟨0, _⟩ => rfl | ⟨1, _⟩ => rfl)
theorem ridx23 (r : Fin 100000) (q : Fin 32) (k : Fin 128) : ridx_main_v23 (ix2 (n0 := 100000) (n1 := 32) r q) k = ix2 (n0 := 128) (n1 := 32) k q :=
  funext fun a => Fin.ext (by match a with | ⟨0, _⟩ => rfl | ⟨1, _⟩ => rfl)
theorem lidx27 (r : Fin 100000) (q : Fin 32) (k : Fin 128) : lidx_main_v27 (ix2 (n0 := 100000) (n1 := 32) r q) k = ix2 (n0 := 100000) (n1 := 128) r k :=
  funext fun a => Fin.ext (by match a with | ⟨0, _⟩ => rfl | ⟨1, _⟩ => rfl)
theorem ridx27 (r : Fin 100000) (q : Fin 32) (k : Fin 128) : ridx_main_v27 (ix2 (n0 := 100000) (n1 := 32) r q) k = ix2 (n0 := 128) (n1 := 32) k q :=
  funext fun a => Fin.ext (by match a with | ⟨0, _⟩ => rfl | ⟨1, _⟩ => rfl)
theorem bidx25 (r : Fin 100000) (q : Fin 32) : idx_main_v24 (idx_main_v25 (ix2 (n0 := 100000) (n1 := 32) r q)) = ix1 (n := 32) q :=
  funext fun a => Fin.ext (by match a with | ⟨0, _⟩ => rfl)

theorem lidx49 (r : Fin 100000) (k : Fin 16) (l : Fin 32) : lidx_main_v49 (ix2 (n0 := 100000) (n1 := 16) r k) l = ix2 (n0 := 100000) (n1 := 32) r l :=
  funext fun a => Fin.ext (by match a with | ⟨0, _⟩ => rfl | ⟨1, _⟩ => rfl)
theorem ridx49 (r : Fin 100000) (k : Fin 16) (l : Fin 32) : ridx_main_v49 (ix2 (n0 := 100000) (n1 := 16) r k) l = ix2 (n0 := 32) (n1 := 16) l k :=
  funext fun a => Fin.ext (by match a with | ⟨0, _⟩ => rfl | ⟨1, _⟩ => rfl)
theorem lidx53 (r : Fin 100000) (k : Fin 16) (l : Fin 32) : lidx_main_v53 (ix2 (n0 := 100000) (n1 := 16) r k) l = ix2 (n0 := 100000) (n1 := 32) r l :=
  funext fun a => Fin.ext (by match a with | ⟨0, _⟩ => rfl | ⟨1, _⟩ => rfl)
theorem ridx53 (r : Fin 100000) (k : Fin 16) (l : Fin 32) : ridx_main_v53 (ix2 (n0 := 100000) (n1 := 16) r k) l = ix2 (n0 := 32) (n1 := 16) l k :=
  funext fun a => Fin.ext (by match a with | ⟨0, _⟩ => rfl | ⟨1, _⟩ => rfl)
theorem bidx51 (r : Fin 100000) (k : Fin 16) : idx_main_v50 (idx_main_v51 (ix2 (n0 := 100000) (n1 := 16) r k)) = ix1 (n := 16) k :=
  funext fun a => Fin.ext (by match a with | ⟨0, _⟩ => rfl)
theorem lidx56 (r : Fin 100000) (j : Fin 2) (k : Fin 16) : lidx_main_v56 (ix2 (n0 := 100000) (n1 := 2) r j) k = ix2 (n0 := 100000) (n1 := 16) r k :=
  funext fun a => Fin.ext (by match a with | ⟨0, _⟩ => rfl | ⟨1, _⟩ => rfl)
theorem ridx56 (r : Fin 100000) (j : Fin 2) (k : Fin 16) : ridx_main_v56 (ix2 (n0 := 100000) (n1 := 2) r j) k = ix2 (n0 := 16) (n1 := 2) k j :=
  funext fun a => Fin.ext (by match a with | ⟨0, _⟩ => rfl | ⟨1, _⟩ => rfl)
theorem bidx58 (r : Fin 100000) (j : Fin 2) : idx_main_v57 (idx_main_v58 (ix2 (n0 := 100000) (n1 := 2) r j)) = ix1 (n := 2) j :=
  funext fun a => Fin.ext (by match a with | ⟨0, _⟩ => rfl)

/-! ### The reference's first hidden array is layer one -/

/-- relu((mean·Wl + b) + x·Wr) = relu((mean·Wl + x·Wr) + b), entry by entry. -/
theorem hidden1_eq (x0 : FVec Ideal S100000x128 .f32) (x1 : IVec S2x1600000 32) (x2 : FVec Ideal S128x32 .f32)
    (x3 : FVec Ideal S32 .f32) (x4 : FVec Ideal S128x32 .f32) (h : S32.ShapeCasts S1x32) :
    val_main_v29 (F := Ideal) x0 x1 x2 x3 x4
      = Cert.Sage.layer1 (val_main_v22 (F := Ideal) x0 x1) x0 x2 (shapeCast S1x32 x3 h) x4 := by
  funext i
  obtain ⟨r, q, rfl⟩ : ∃ (r : Fin 100000) (q : Fin 32), i = ix2 (n0 := 100000) (n1 := 32) r q := ⟨i 0, i 1, eq_ix2 i⟩
  rw [val_main_v29_apply, val_main_v28_apply, val_main_v26_apply, val_main_v23_apply, val_main_v27_apply,
    val_main_v25_apply, val_main_v24_apply, val_main_call0_v0_apply, val_main_call0_cst_apply, Cert.Sage.layer1_apply]
  simp only [lidx23, ridx23, lidx27, ridx27, bidx25, shapeCast_a_1a_apply, Ideal.maximumf_def, Ideal.addf_def, zero_bits]
  rw [add_right_comm]

/-! ### The reference's result is layer two and the final linear map -/

/-- The hidden row of layer two as the reference computes it: relu((mean2·W2l + b2) + h·W2r). -/
theorem hidden2_eq (x0 : FVec Ideal S100000x128 .f32) (x1 : IVec S2x1600000 32) (x2 : FVec Ideal S128x32 .f32)
    (x3 : FVec Ideal S32 .f32) (x4 : FVec Ideal S128x32 .f32) (x5 : FVec Ideal S32x16 .f32) (x6 : FVec Ideal S16 .f32)
    (x7 : FVec Ideal S32x16 .f32) (h6 : S16.ShapeCasts S1x16) (r : Fin 100000) (k : Fin 16) :
    val_main_v55 (F := Ideal) x0 x1 x2 x3 x4 x5 x6 x7 (ix2 (n0 := 100000) (n1 := 16) r k)
      = Cert.Sage.hidden2 (val_main_v48 (F := Ideal) x0 x1 x2 x3 x4) (val_main_v29 (F := Ideal) x0 x1 x2 x3 x4) x5
          (shapeCast S1x16 x6 h6) x7 r k := by
  rw [val_main_v55_apply, val_main_v54_apply, val_main_v52_apply, val_main_v49_apply, val_main_v53_apply,
    val_main_v51_apply, val_main_v50_apply, val_main_call1_v0_apply, val_main_call1_cst_apply]
  unfold Cert.Sage.hidden2
  simp only [lidx49, ridx49, lidx53, ridx53, bidx51, shapeCast_a_1a_apply, Ideal.maximumf_def, Ideal.addf_def, zero_bits]
  rw [add_right_comm]

/-- The reference's result: the hidden rows of layer two through the final weights, plus the final bias. -/
theorem result_eq (x0 : FVec Ideal S100000x128 .f32) (x1 : IVec S2x1600000 32) (x2 : FVec Ideal S128x32 .f32)
    (x3 : FVec Ideal S32 .f32) (x4 : FVec Ideal S128x32 .f32) (x5 : FVec Ideal S32x16 .f32) (x6 : FVec Ideal S16 .f32)
    (x7 : FVec Ideal S32x16 .f32) (x8 : FVec Ideal S16x2 .f32) (x9 : FVec Ideal S2 .f32)
    (h6 : S16.ShapeCasts S1x16) (h9 : S2.ShapeCasts S1x2) :
    val_main_v59 (F := Ideal) x0 x1 x2 x3 x4 x5 x6 x7 x8 x9
      = Cert.Sage.layer2 (val_main_v48 (F := Ideal) x0 x1 x2 x3 x4) (val_main_v29 (F := Ideal) x0 x1 x2 x3 x4) x5
          (shapeCast S1x16 x6 h6) x7 x8 (shapeCast S1x2 x9 h9) := by
  funext i
  obtain ⟨r, j, rfl⟩ : ∃ (r : Fin 100000) (j : Fin 2), i = ix2 (n0 := 100000) (n1 := 2) r j := ⟨i 0, i 1, eq_ix2 i⟩
  rw [val_main_v59_apply, val_main_v56_apply, val_main_v58_apply, val_main_v57_apply, bidx58, Cert.Sage.layer2_apply,
    shapeCast_a_1a_apply]
  simp only [lidx56, ridx56, hidden2_eq x0 x1 x2 x3 x4 x5 x6 x7 h6, Ideal.addf_def]

end Cert.ReferenceIdeal.Layers

end
-- ==== Proof.MeanLaw.lean ====
/-
  The neighbourhood mean, formed two ways.  The reference divides the summed neighbour features of a node by its degree
  clamped below by one; the other program multiplies them by the reciprocal of that clamped degree, computed once.  The
  clamped degree is at least one, so never zero, and for a nonzero divisor the product with the reciprocal is the quotient
  on every extended real (infinite sums included).  Stated for both feature widths, over any array of summed features.
-/
import proofs.«179205_j70076686401960_1_alg».proof.Proof.Gen.ReferenceIdeal.Read
import proofs.«179205_j70076686401960_1_alg».proof.Proof.Layers

set_option maxRecDepth 16384

noncomputable section

namespace Cert.ReferenceIdeal.Mean

open Cert.ReferenceIdeal Cert.ReferenceIdeal.Gen Cert.ReferenceIdeal.Read Idealize.ShloMosaic Idealize.ShloMosaic.TcCoe

/-- The all-ones vector the degree is clamped by, and the reciprocal's numerator. -/
abbrev ones : FVec Ideal S100000 .f32 := val_main_v18 (F := Ideal)

theorem ones_apply (j : S100000.Idx) : ones j = Ideal.ofBits .f32 0x3F800000#32 := by
  show val_main_v18 (F := Ideal) j = _
  rw [val_main_v18_apply, val_main_cst_3_apply]; rfl

/-- Width 128: row sums times the reciprocal of a nowhere-zero vector are the row sums divided by it. -/
theorem mul_recip128 (A : FVec Ideal S100000x128 .f32) (D : FVec Ideal S100000 .f32) (hD : ∀ j, D j ≠ 0) :
    mulf A (broadcastInDim S100000x128 ![0, 1] bcast_S100000x1_S100000x128_0_1
        (broadcastInDim S100000x1 ![0] bcast_S100000_S100000x1_0 (Host.divf ones D)))
      = Host.divf A (broadcastInDim S100000x128 ![0, 1] bcast_S100000x1_S100000x128_0_1
        (broadcastInDim S100000x1 ![0] bcast_S100000_S100000x1_0 D)) := by
  funext i
  show A i * Ideal.div (ones _) (D _) = Ideal.div (A i) (D _)
  rw [ones_apply]
  exact Cert.Sage.mul_one_div _ _ (hD _)

/-- Width 32. -/
theorem mul_recip32 (A : FVec Ideal S100000x32 .f32) (D : FVec Ideal S100000 .f32) (hD : ∀ j, D j ≠ 0) :
    mulf A (broadcastInDim S100000x32 ![0, 1] bcast_S100000x1_S100000x32_0_1
        (broadcastInDim S100000x1 ![0] bcast_S100000_S100000x1_0 (Host.divf ones D)))
      = Host.divf A (broadcastInDim S100000x32 ![0, 1] bcast_S100000x1_S100000x32_0_1
        (broadcastInDim S100000x1 ![0] bcast_S100000_S100000x1_0 D)) := by
  funext i
  show A i * Ideal.div (ones _) (D _) = Ideal.div (A i) (D _)
  rw [ones_apply]
  exact Cert.Sage.mul_one_div _ _ (hD _)

end Cert.ReferenceIdeal.Mean

end
-- ==== Proof.MeanStages.lean ====
/-
  The two neighbourhood means of the reference, reached from the other program's form.  The clamped degree of every node
  is at least one, hence not zero, so the product of a row of neighbour sums with the reciprocal degree is the reference's
  quotient of that row by the degree — for the node features (first layer) and for the hidden features (second layer).
-/
import proofs.«179205_j70076686401960_1_alg».proof.Proof.MeanLaw
import proofs.«179205_j70076686401960_1_alg».proof.Proof.RefStages

set_option maxRecDepth 16384

noncomputable section

namespace Cert.ReferenceIdeal.Mean

open Cert.ReferenceIdeal Cert.ReferenceIdeal.Gen Cert.ReferenceIdeal.Read Idealize.ShloMosaic Idealize.ShloMosaic.TcCoe

/-- The degree of every node, clamped below by one, is not zero. -/
theorem degree_ne_zero (x1 : IVec S2x1600000 32) (j : S100000.Idx) : val_main_v19 (F := Ideal) x1 j ≠ 0 := by
  rw [val_main_v19_apply, val_main_v18_apply, val_main_cst_3_apply]
  generalize val_main_v17 (F := Ideal) x1 j = a
  exact Cert.Sage.max_one_ne_zero a

/-- First layer: neighbour sums of the node features times the reciprocal degree are the reference's mean. -/
theorem first_mean (x0 : FVec Ideal S100000x128 .f32) (x1 : IVec S2x1600000 32) :
    (mulf (val_main_v13 (F := Ideal) x0 x1) (broadcastInDim S100000x128 ![0, 1] bcast_S100000x1_S100000x128_0_1
        (broadcastInDim S100000x1 ![0] bcast_S100000_S100000x1_0
          (Host.divf (val_main_v18 (F := Ideal)) (val_main_v19 (F := Ideal) x1)))) : FVec Ideal S100000x128 .f32)
      = (val_main_v22 (F := Ideal) x0 x1 : FVec Ideal S100000x128 .f32) := by
  unfold val_main_v22
  rw [Stages.divisor128]
  generalize val_main_v13 (F := Ideal) x0 x1 = A
  exact mul_recip128 A (val_main_v19 (F := Ideal) x1) (degree_ne_zero x1)

/-- Second layer: neighbour sums of the reference's own hidden features times the reciprocal degree are its mean. -/
theorem second_mean (x0 : FVec Ideal S100000x128 .f32) (x1 : IVec S2x1600000 32) (x2 : FVec Ideal S128x32 .f32)
    (x3 : FVec Ideal S32 .f32) (x4 : FVec Ideal S128x32 .f32) :
    (mulf (Stages.neighbourSums32 (F := Ideal) (val_main_v29 (F := Ideal) x0 x1 x2 x3 x4) (val_main_v1 (F := Ideal) x1)
          (val_main_v3 (F := Ideal) x1))
        (broadcastInDim S100000x32 ![0, 1] bcast_S100000x1_S100000x32_0_1
          (broadcastInDim S100000x1 ![0] bcast_S100000_S100000x1_0
            (Host.divf (val_main_v18 (F := Ideal)) (val_main_v19 (F := Ideal) x1)))) : FVec Ideal S100000x32 .f32)
      = (val_main_v48 (F := Ideal) x0 x1 x2 x3 x4 : FVec Ideal S100000x32 .f32) := by
  unfold val_main_v48
  rw [Stages.divisor32, Stages.sums_of_hidden]
  generalize Stages.neighbourSums32 (F := Ideal) (val_main_v29 (F := Ideal) x0 x1 x2 x3 x4) (val_main_v1 (F := Ideal) x1)
    (val_main_v3 (F := Ideal) x1) = A
  exact mul_recip32 A (val_main_v19 (F := Ideal) x1) (degree_ne_zero x1)

end Cert.ReferenceIdeal.Mean

end
-- ==== Proof.KernelValue.lean ====
/-
  The result array of the whole program, as the reference's own result stage of the launched arguments.

  The chain, from the launch: the first stretch of host operations leaves the reference's neighbour sums of the node features
  times the reciprocal degree — the reference's first mean, by the law  a · (1/d) = a / d  for d ≠ 0 —, the first region
  turns that mean, the features and the first layer's weights into layer one's array, which is the reference's first hidden
  array; the second stretch forms the neighbour sums of that hidden array times the same reciprocal degree — the
  reference's second mean —, and the second region turns it, the hidden array and the remaining weights into layer two
  followed by the final linear map: the reference's result.
-/
import proofs.«179205_j70076686401960_1_alg».proof.Proof.Gen.KernelIdeal.Frame
import proofs.«179205_j70076686401960_1_alg».proof.Proof.Array1
import proofs.«179205_j70076686401960_1_alg».proof.Proof.Array2
import proofs.«179205_j70076686401960_1_alg».proof.Proof.HostSide
import proofs.«179205_j70076686401960_1_alg».proof.Proof.RefLayers
import proofs.«179205_j70076686401960_1_alg».proof.Proof.MeanStages

set_option maxRecDepth 16384

noncomputable section

namespace Cert.KernelIdeal.Value

open Cert.KernelIdeal Cert.KernelIdeal.Gen Idealize.ShloMosaic Idealize.ShloMosaic.TcCoe Idealize.SL.Sem
open Idealize.ShloMosaic.StableHlo
open Cert.ReferenceIdeal.Read

variable (m : (ℓ : Loc nD τ sig) → Buf (Elt Ideal) ℓ) (ρ : Dev nD → PrngReg) (c : Dev nD)

/-! ### What the first region is entered with -/

theorem v1_mean : V1 m ρ c main_v24 = val_main_v22 (F := Ideal) (m ((c.tc : Thread nD τ).loc main_arg0)) (m ((c.tc : Thread nD τ).loc main_arg1)) := by
  show after hostOps0 (W0 m ρ c) (Proc.devRef .tc main_v24) = _
  rw [HostSide.mean1_eq]
  exact Cert.ReferenceIdeal.Mean.first_mean _ _

theorem v1_bias : V1 m ρ c main_v25 = shapeCast S1x32 (m ((c.tc : Thread nD τ).loc main_arg3)) shapeCasts_S32_S1x32 := by
  show after hostOps0 (W0 m ρ c) (Proc.devRef .tc main_v25) = _
  rw [HostSide.bias1_eq]

theorem v1_arg0 : V1 m ρ c main_arg0 = (m ((c.tc : Thread nD τ).loc main_arg0)) := HostSide.kept0_main_arg0 (W0 m ρ c)
theorem v1_arg2 : V1 m ρ c main_arg2 = (m ((c.tc : Thread nD τ).loc main_arg2)) := HostSide.kept0_main_arg2 (W0 m ρ c)
theorem v1_arg4 : V1 m ρ c main_arg4 = (m ((c.tc : Thread nD τ).loc main_arg4)) := HostSide.kept0_main_arg4 (W0 m ρ c)

/-! ### What the first region leaves, and what else the second stretch reads -/

/-- The first region's result is the reference's first hidden array. -/
theorem hidden1 : W2 m ρ c (Proc.devRef .tc main_v26) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [show W2 m ρ c (Proc.devRef .tc main_v26) = (dat0 (V1 m ρ) c).arrAt 5 cfg0.N from W2_arr m ρ c 5]
  rw [Array1.final (V1 m ρ) c, v1_mean, v1_arg0, v1_arg2, v1_bias, v1_arg4]
  exact (Cert.ReferenceIdeal.Layers.hidden1_eq _ _ _ _ _ _).symm

theorem w2_src : W2 m ρ c (Proc.devRef .tc main_v1) = val_main_v1 (F := Ideal) (m ((c.tc : Thread nD τ).loc main_arg1)) :=
  (W2_of_ne m ρ c main_v1 (by decide)).trans (HostSide.src_eq (W0 m ρ c))
theorem w2_dst : W2 m ρ c (Proc.devRef .tc main_v3) = val_main_v3 (F := Ideal) (m ((c.tc : Thread nD τ).loc main_arg1)) :=
  (W2_of_ne m ρ c main_v3 (by decide)).trans (HostSide.dst_eq (W0 m ρ c))
theorem w2_recip : (W2 m ρ c (Proc.devRef .tc main_v11) : FVec Ideal S100000 .f32)
    = (Host.divf (val_main_v18 (F := Ideal)) (val_main_v19 (F := Ideal) (m ((c.tc : Thread nD τ).loc main_arg1))) : FVec Ideal S100000 .f32) :=
  (W2_of_ne m ρ c main_v11 (by decide)).trans (HostSide.recip_eq (W0 m ρ c))
theorem w2_arg5 : W2 m ρ c (Proc.devRef .tc main_arg5) = (m ((c.tc : Thread nD τ).loc main_arg5)) :=
  (W2_of_ne m ρ c main_arg5 (by decide)).trans (HostSide.kept0_main_arg5 (W0 m ρ c))
theorem w2_arg6 : W2 m ρ c (Proc.devRef .tc main_arg6) = (m ((c.tc : Thread nD τ).loc main_arg6)) :=
  (W2_of_ne m ρ c main_arg6 (by decide)).trans (HostSide.kept0_main_arg6 (W0 m ρ c))
theorem w2_arg7 : W2 m ρ c (Proc.devRef .tc main_arg7) = (m ((c.tc : Thread nD τ).loc main_arg7)) :=
  (W2_of_ne m ρ c main_arg7 (by decide)).trans (HostSide.kept0_main_arg7 (W0 m ρ c))
theorem w2_arg8 : W2 m ρ c (Proc.devRef .tc main_arg8) = (m ((c.tc : Thread nD τ).loc main_arg8)) :=
  (W2_of_ne m ρ c main_arg8 (by decide)).trans (HostSide.kept0_main_arg8 (W0 m ρ c))
theorem w2_arg9 : W2 m ρ c (Proc.devRef .tc main_arg9) = (m ((c.tc : Thread nD τ).loc main_arg9)) :=
  (W2_of_ne m ρ c main_arg9 (by decide)).trans (HostSide.kept0_main_arg9 (W0 m ρ c))

/-! ### What the second region is entered with -/

theorem v3_mean : V3 m ρ c main_v39 = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show after hostOps1 (W2 m ρ c) (Proc.devRef .tc main_v39) = _
  rw [HostSide.mean2_eq, hidden1, w2_src, w2_dst, w2_recip]
  exact Cert.ReferenceIdeal.Mean.second_mean _ _ _ _ _

theorem v3_hidden : V3 m ρ c main_v26 = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (HostSide.kept1_main_v26 (W2 m ρ c)).trans (hidden1 m ρ c)

theorem v3_bias2 : V3 m ρ c main_v40 = shapeCast S1x16 (m ((c.tc : Thread nD τ).loc main_arg6)) shapeCasts_S16_S1x16 := by
  show after hostOps1 (W2 m ρ c) (Proc.devRef .tc main_v40) = _
  rw [HostSide.bias2_eq, w2_arg6]

theorem v3_bias3 : V3 m ρ c main_v41 = shapeCast S1x2 (m ((c.tc : Thread nD τ).loc main_arg9)) shapeCasts_S2_S1x2 := by
  show after hostOps1 (W2 m ρ c) (Proc.devRef .tc main_v41) = _
  rw [HostSide.bias3_eq, w2_arg9]

theorem v3_arg5 : V3 m ρ c main_arg5 = (m ((c.tc : Thread nD τ).loc main_arg5)) := (HostSide.kept1_main_arg5 (W2 m ρ c)).trans (w2_arg5 m ρ c)
theorem v3_arg7 : V3 m ρ c main_arg7 = (m ((c.tc : Thread nD τ).loc main_arg7)) := (HostSide.kept1_main_arg7 (W2 m ρ c)).trans (w2_arg7 m ρ c)
theorem v3_arg8 : V3 m ρ c main_arg8 = (m ((c.tc : Thread nD τ).loc main_arg8)) := (HostSide.kept1_main_arg8 (W2 m ρ c)).trans (w2_arg8 m ρ c)

/-! ### The result -/

/-- The result array after the second region is the reference's result stage of the launched arguments. -/
theorem result : W4 m ρ c (Proc.devRef .tc main_v42) = val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [show W4 m ρ c (Proc.devRef .tc main_v42) = (dat1 (V3 m ρ) c).arrAt 7 cfg1.N from W4_arr m ρ c 7]
  rw [Array2.final (V3 m ρ) c, v3_mean, v3_hidden, v3_arg5, v3_bias2, v3_arg7, v3_arg8, v3_bias3]
  exact (Cert.ReferenceIdeal.Layers.result_eq _ _ _ _ _ _ _ _ _ _ _ _).symm

end Cert.KernelIdeal.Value

end
-- ==== Proof.lean ====
/-
  Two programs for a two-layer graph network with mean aggregation and a final linear map, equal on the extended reals.

  Both programs gather the features of each edge's source node, add them up per destination node, and turn the sums into
  means with the in-degree clamped below by one; both then apply  relu(mean · Wl + x · Wr + b)  twice and a final linear
  map.  One program does the dense part in two tiled regions of twenty row blocks each and forms the mean as a product
  with the reciprocal of the clamped degree; the reference forms the mean as a quotient and adds the bias before the
  second product.  On the extended reals the changes of float format are the identity, a matrix product into a zero
  accumulator is the plain sum over the inner axis, addition is commutative and associative, and for a divisor d ≠ 0
  (the clamped degree is at least one)  a · (1/d) = a / d  — so the two results are one array, entry by entry.  No
  finiteness of the inputs is used.

  The pieces: the layers as functions of whole arrays and the scalar law (Layers); one grid step of each region entry by
  entry (Body1, Body2) and the array each region leaves (Array1, Array2); the host operations around the regions named
  in the reference's own stages (HostSide, RefStages); the two forms of the mean (MeanLaw, MeanStages); the reference's
  stages as the layers (RefLayers); the result of the whole run (KernelRun, KernelValue).  The three frame claims are the
  runs with the results dropped; the idealization rewrote nothing, so the fourth claim is trivial.
-/
import proofs.«179205_j70076686401960_1_alg».proof.Defs
import proofs.«179205_j70076686401960_1_alg».proof.Proof.Gen.Kernel
import proofs.«179205_j70076686401960_1_alg».proof.Proof.Gen.Kernel.Frame
import proofs.«179205_j70076686401960_1_alg».proof.Proof.Gen.KernelIdeal
import proofs.«179205_j70076686401960_1_alg».proof.Proof.Gen.KernelIdeal.Frame
import proofs.«179205_j70076686401960_1_alg».proof.Proof.Gen.ReferenceIdeal
import proofs.«179205_j70076686401960_1_alg».proof.Proof.Gen.Pre_finite_inputs
import proofs.«179205_j70076686401960_1_alg».proof.Proof.Gen.ReferenceIdeal.Run
import proofs.«179205_j70076686401960_1_alg».proof.Proof.Gen.ReferenceIdeal.Read
import proofs.«179205_j70076686401960_1_alg».proof.Proof.KernelRun
import proofs.«179205_j70076686401960_1_alg».proof.Proof.KernelValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ

theorem frame_ideal : @Cert.frame_KernelIdeal Cert.KernelIdeal.Gen.facts Cert.Pre_finite_inputs.Gen.facts :=
  fun m ρ _ => Cert.KernelIdeal.Gen.frame m ρ

theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both runs end with the result array at the reference's result stage of the (agreeing) argument arrays. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.ReferenceIdeal.Read.val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Value.result m ρ c), (h c).2⟩)
      (Cert.KernelIdeal.Hand.run_out (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v59_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
